-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x8 : Shape := ⟨2, ![1600000, 8]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x8 .f32) (main_arg3 : FVec F S64x128 .f32) (main_arg4 : FVec F S128 .f32) (main_arg5 : FVec F S128 .f32) (main_arg6 : FVec F S128 .f32) (main_arg7 : FVec F S128x128 .f32) (main_arg8 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x8 : Shape := ⟨2, ![1600000, 8]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 49
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x8, .f32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S1x128, .f32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x8 : Shape := ⟨2, ![1600000, 8]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x8, .f32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S100000x64, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KB0Runs.lean ====
/-
  The statistics kernel, one grid point at a time: what its branch on the grid position decides, and the
  memrefs it is called with.  The kernel zeroes its two accumulators at the first of its twenty points only,
  so its body has two behaviours: "first point" (accumulators reset, then the tile's column sums added) and
  "later point" (the tile's column sums added to what the previous point left).
-/
import proofs.«152382_j29643864277575_1_alg».proof.Proof.Gen.Kernel.Launch
import proofs.«152382_j29643864277575_1_alg».proof.Proof.Gen.Kernel.Skeleton
import proofs.«152382_j29643864277575_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the grid position -/

/-- The accumulators are reset exactly when the grid coordinate is zero. -/
abbrev cond0 (i : grid0.Coords) : Prop :=
  (Scalar.cmpi .ne (Scalar.extui (Scalar.cmpi .eq (BitVec.ofNat 32 (i 0).val) 0#32)) 0#32) = 1#1

/-- Over the twenty points: at the first one only. -/
theorem hcond0 : ∀ t : Fin cfg0.N, cond0 (grid0.coords t) ↔ t.val = 0 :=
  (by decide +kernel : ∀ t : Fin grid0.N, cond0 (grid0.coords t) ↔ t.val = 0)

/-! ## The memrefs the body is called with -/

abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

/-- The two accumulators: whole scoped buffers of the kernel's own. -/
abbrev scM0_0 : Memref sig .tc .vmem S1x128 .f32 := Memref.whole cc0_scratch0
abbrev scM0_1 : Memref sig .tc .vmem S1x128 .f32 := Memref.whole cc0_scratch1

/-- Views through which the contents of the three results' buffers and of the two accumulators are stated. -/
abbrev VO0_4 : View sig .tc .vmem S5000x128 .f32 := (Memref.whole cc0_stg4_0 : Memref sig .tc .vmem S5000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
abbrev VS0_0 : View sig .tc .vmem S1x128 .f32 := scM0_0.view
abbrev VS0_1 : View sig .tc .vmem S1x128 .f32 := scM0_1.view

/-- The scoped buffers that belong to the other kernel: held at some contents each, untouched here. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region hands the body before its first point: both accumulators at some contents, the other kernel's
    scoped buffers, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) := by
  unfold Pipeline.ΦA restS; rw [scopedRest0_eq]; simp only [scM0_0, scM0_1, owns_whole]; try rfl

end Cert.Kernel.Hand

end
-- ==== Proof.KB0RunA.lean ====
/-
  The statistics kernel at its first grid point: both accumulators are overwritten with zeros, the tile's
  dense layer is stored, and each accumulator receives zero plus the tile's column sum; the two statistics
  results are copies of the accumulators.
-/
import proofs.«152382_j29643864277575_1_alg».proof.Proof.KB0Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point, on whole memrefs — the four inputs at their contents, every other buffer at anything — the
    body runs, leaving the inputs as they were and each other buffer with the pieces it stored written over it. -/
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__k1_kernel_eq_skeleton]; unfold cc0__k1_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KB0RunB.lean ====
/-
  The statistics kernel at a later grid point: the tile's dense layer is stored and each accumulator receives
  what the previous point left plus the tile's column sum; the two statistics results are copies of the
  accumulators.
-/
import proofs.«152382_j29643864277575_1_alg».proof.Proof.KB0RunA
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later point, on whole memrefs — the four inputs and the two accumulators at their contents, the three
    results' buffers at anything — the body runs, leaving the inputs as they were and each other buffer with the
    pieces it stored written over it. -/
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32)
    (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__k1_kernel_eq_skeleton]; unfold cc0__k1_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4
    obtain rfl := harg8.eq_unread hfs0; obtain rfl := harg9.eq_unread hfs1
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KB0.lean ====
/-
  The statistics kernel over its twenty grid points.  After point `n` the first result's buffer holds the dense
  layer of tile `n`, and both accumulators (and the two statistics results, which are copies of them) hold the
  column sums of the dense layer, and of its square, over tiles `0 … n`: point `0` starts them from zero, point
  `n + 1` adds tile `n + 1` to what point `n` left.  The invariant between points carries the two accumulators at
  exactly those contents, which is what lets the body at a later point be run at all.
-/
import proofs.«152382_j29643864277575_1_alg».proof.Proof.KB0RunB
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in each buffer: the pieces its run found, read back -/

theorem cover0_A_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).1 S5000x128.size (by sl_kernel_rfl) y

def out0_A_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S5000x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc x0 x1 x2 x3).1)

theorem cover0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.1 S1x128.size (by sl_kernel_rfl) y

def out0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc x0 x1 x2 x3).2.1)

theorem cover0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.2.1 S1x128.size (by sl_kernel_rfl) y

def out0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc x0 x1 x2 x3).2.2.1)

theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.2.2.1 S1x128.size (by sl_kernel_rfl) y

def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc x0 x1 x2 x3).2.2.2.1)

theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.2.2.2.1 S1x128.size (by sl_kernel_rfl) y

def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc x0 x1 x2 x3).2.2.2.2.1)

theorem cover0_B_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).1 S5000x128.size (by sl_kernel_rfl) y

def out0_B_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S5000x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc x0 x1 x2 x3 xs0 xs1).1)

theorem cover0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.1 S1x128.size (by sl_kernel_rfl) y

def out0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc x0 x1 x2 x3 xs0 xs1).2.1)

theorem cover0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.2.1 S1x128.size (by sl_kernel_rfl) y

def out0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc x0 x1 x2 x3 xs0 xs1).2.2.1)

theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.2.2.1 S1x128.size (by sl_kernel_rfl) y

def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc x0 x1 x2 x3 xs0 xs1).2.2.2.1)

theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.2.2.2.1 S1x128.size (by sl_kernel_rfl) y

def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc x0 x1 x2 x3 xs0 xs1).2.2.2.2.1)

/-! ## Point by point -/

/-- What the three results' buffers and the two accumulators hold after the body at point `n`, in that order. -/
def outsAt0 (c : Dev nD) : (n : ℕ) → n < cfg0.N →
    Vec F S5000x128 .f32 × Vec F S1x128 .f32 × Vec F S1x128 .f32 × Vec F S1x128 .f32 × Vec F S1x128 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩))
  | n + 1, hn =>
    (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) :
    outsAt0 V c t.val t.isLt =
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt =
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact rfl

/-- The invariant before position `n`: before the first point both accumulators at anything; afterwards each at what
    the point before left in it; always the other kernel's scoped buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4800000 in
/-- The body at any point: the inputs' buffers hold their blocks; the grid position says which of the two cases
    applies; the invariant hands the body the accumulators (at anything at the first point, at what the point before
    left afterwards) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6]
  by_cases h0 : t.val = 0
  · rw [outsAt0_A V c t h0]
    unfold out0_A_4 out0_A_5 out0_A_6 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0 t).mpr h0) (iblk0 V c 0 t) (iblk0 V c 1 t) (iblk0 V c 2 t) (iblk0 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _ _ _ _)
  · rw [outsAt0_B V c t h0]
    unfold out0_B_4 out0_B_5 out0_B_6 sout0_B_0 sout0_B_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0 t).mp h)) (iblk0 V c 0 t) (iblk0 V c 1 t) (iblk0 V c 2 t) (iblk0 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the region hands the body is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's own back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.Kernel.Hand

end
-- ==== Proof.KB1.lean ====
/-
  The second kernel, one grid point at a time.  At every one of its twenty points it reads a tile of 5000 rows of
  the first layer's output together with the whole scale row, shift row, second weight matrix and bias row, and
  stores `max (h·scale + shift) 0 · W2 + b2` for the tile.  It keeps nothing between points and branches on
  nothing, so one statement covers every point: the inputs' buffers are left as found and the output's buffer
  holds that value.
-/
import proofs.«152382_j29643864277575_1_alg».proof.Proof.Gen.Kernel.Launch
import proofs.«152382_j29643864277575_1_alg».proof.Proof.Gen.Kernel.Skeleton
import proofs.«152382_j29643864277575_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current buffer holds its block at every point, whether or not it was fetched there: a window
    whose block index does not move is fetched once and its block stays in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_o : Rect S5000x128 := Rect.unit (s := S5000x128) ![0, 0] S5000x128.size inb_S5000x128_S5000x128_0_0
abbrev r1_big : Rect S5000x128 := r1_o
abbrev r1_row : Rect S1x128 := Rect.unit (s := S1x128) ![0, 0] S1x128.size inb_S1x128_S1x128_0_0
abbrev r1_w : Rect S128x128 := Rect.unit (s := S128x128) ![0, 0] S128x128.size inb_S128x128_S128x128_0_0

/-- What the body leaves in the output's buffer, from the five inputs' blocks: its one whole-buffer store. -/
def out1_5 (x0 : Vec F S5000x128 .f32) (x1 : Vec F S1x128 .f32) (x2 : Vec F S1x128 .f32) (x3 : Vec F S128x128 .f32) (x4 : Vec F S1x128 .f32) : Vec F S5000x128 .f32 :=
  View.canon [⟨r1_o, k1_pay1 (View.ld x0 r1_big) (View.ld x1 r1_row) (View.ld x2 r1_row) (View.ld x3 r1_w) (View.ld x4 r1_row)⟩]

/-- The one store covers the buffer. -/
theorem cover1_5 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

set_option maxHeartbeats 2000000 in
/-- The body on whole memrefs, the inputs' at their contents and the output's at anything, runs to the
    continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__k2_kernel i arg1 harg1 arg2 harg2 arg3 harg3 arg4 harg4 arg5 harg5 arg6 harg6) K := by
  simp only [cc1__k2_kernel_eq_skeleton]; unfold cc1__k2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The second kernel's proof data on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KBRun.lean ====
/-
  The whole program as a chain of four stretches — host operations, the statistics kernel, host operations, the
  second kernel — with the contents of every buffer named at each boundary: a host stretch applies its
  operations; a kernel leaves each of its arrays at what its write-backs produce and every other buffer as it
  found it.  Every weakly fair execution terminates with every unscoped buffer at the last boundary's contents;
  in particular each argument array is as it was launched, since no stretch writes one.
-/
import proofs.«152382_j29643864277575_1_alg».proof.Proof.KB0
import proofs.«152382_j29643864277575_1_alg».proof.Proof.KB1
import proofs.«152382_j29643864277575_1_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev Vi0 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vi0 m ρ) c).arrAt w cfg0.N
theorem W2_arr (c : Dev nD) (w : Fin cfg0.W) :
    W2 m ρ c (Proc.devRef .tc (Pipeline.arrRef spec0 w)) = (dat0 (Vi0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vo0 : (c : Dev nD) → (b : Ref sig .tc) → Buf (Elt F) ((c : Thread nD τ).loc b) := fun c b => W2 m ρ c b
theorem hF0 (c : Dev nD) (w : Fin cfg0.W) : (dat0 (Vi0 m ρ) c).arrAt w cfg0.N = Vo0 m ρ c (Pipeline.arrRef spec0 w) :=
  (W2_arr m ρ c w).symm
theorem hrest0 (c : Dev nD) : ∀ b, b ∉ Finset.univ.image (Pipeline.arrRef spec0) → Vo0 m ρ c b = Vi0 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev Vi1 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (Vi1 m ρ) c).arrAt w cfg1.N
theorem W4_arr (c : Dev nD) (w : Fin cfg1.W) :
    W4 m ρ c (Proc.devRef .tc (Pipeline.arrRef spec1 w)) = (dat1 (Vi1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vo1 : (c : Dev nD) → (b : Ref sig .tc) → Buf (Elt F) ((c : Thread nD τ).loc b) := fun c b => W4 m ρ c b
theorem hF1 (c : Dev nD) (w : Fin cfg1.W) : (dat1 (Vi1 m ρ) c).arrAt w cfg1.N = Vo1 m ρ c (Pipeline.arrRef spec1 w) :=
  (W4_arr m ρ c w).symm
theorem hrest1 (c : Dev nD) : ∀ b, b ∉ Finset.univ.image (Pipeline.arrRef spec1) → Vo1 m ρ c b = Vi1 m ρ c b :=
  fun b hb => W4_of_ne m ρ c b fun w e => hb (Finset.mem_image.mpr ⟨w, Finset.mem_univ _, e⟩)

/-! ## No stretch writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (Vi0 m ρ) c).arrAt_in 0 rfl _).trans (A_eq0 (Vi0 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 2).trans (((dat0 (Vi0 m ρ) c).arrAt_in 2 rfl _).trans (A_eq0 (Vi0 m ρ) c 2))
    _ = W0 m ρ c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 3).trans (((dat1 (Vi1 m ρ) c).arrAt_in 3 rfl _).trans (A_eq1 (Vi1 m ρ) c 3))
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vi0 m ρ) c
  | ⟨1, _⟩ => fun c => dat1 (Vi1 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as stretches -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vi0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vi0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vi0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (Vi0 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (Vi0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vi0 m ρ c) (Vo0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vi1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vi1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vi1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vi1 m ρ c) (Vo1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.Hand

end
-- ==== Proof.KI0Runs.lean ====
/-
  The statistics kernel, one grid point at a time: what its branch on the grid position decides, and the
  memrefs it is called with.  The kernel zeroes its two accumulators at the first of its twenty points only,
  so its body has two behaviours: "first point" (accumulators reset, then the tile's column sums added) and
  "later point" (the tile's column sums added to what the previous point left).
-/
import proofs.«152382_j29643864277575_1_alg».proof.Proof.Gen.KernelIdeal.Launch
import proofs.«152382_j29643864277575_1_alg».proof.Proof.Gen.KernelIdeal.Skeleton
import proofs.«152382_j29643864277575_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the grid position -/

/-- The accumulators are reset exactly when the grid coordinate is zero. -/
abbrev cond0 (i : grid0.Coords) : Prop :=
  (Scalar.cmpi .ne (Scalar.extui (Scalar.cmpi .eq (BitVec.ofNat 32 (i 0).val) 0#32)) 0#32) = 1#1

/-- Over the twenty points: at the first one only. -/
theorem hcond0 : ∀ t : Fin cfg0.N, cond0 (grid0.coords t) ↔ t.val = 0 :=
  (by decide +kernel : ∀ t : Fin grid0.N, cond0 (grid0.coords t) ↔ t.val = 0)

/-! ## The memrefs the body is called with -/

abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)

/-- The two accumulators: whole scoped buffers of the kernel's own. -/
abbrev scM0_0 : Memref sig .tc .vmem S1x128 .f32 := Memref.whole cc0_scratch0
abbrev scM0_1 : Memref sig .tc .vmem S1x128 .f32 := Memref.whole cc0_scratch1

/-- Views through which the contents of the three results' buffers and of the two accumulators are stated. -/
abbrev VO0_4 : View sig .tc .vmem S5000x128 .f32 := (Memref.whole cc0_stg4_0 : Memref sig .tc .vmem S5000x128 .f32).view
abbrev VO0_5 : View sig .tc .vmem S1x128 .f32 := (Memref.whole cc0_stg5_0 : Memref sig .tc .vmem S1x128 .f32).view
abbrev VO0_6 : View sig .tc .vmem S1x128 .f32 := (Memref.whole cc0_stg6_0 : Memref sig .tc .vmem S1x128 .f32).view
abbrev VS0_0 : View sig .tc .vmem S1x128 .f32 := scM0_0.view
abbrev VS0_1 : View sig .tc .vmem S1x128 .f32 := scM0_1.view

/-- The scoped buffers that belong to the other kernel: held at some contents each, untouched here. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the region hands the body before its first point: both accumulators at some contents, the other kernel's
    scoped buffers, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS c) ∗ (∃ r, prngReg c r)) := by
  unfold Pipeline.ΦA restS; rw [scopedRest0_eq]; simp only [scM0_0, scM0_1, owns_whole]; try rfl

end Cert.KernelIdeal.Hand

end
-- ==== Proof.KI0RunA.lean ====
/-
  The statistics kernel at its first grid point: both accumulators are overwritten with zeros, the tile's
  dense layer is stored, and each accumulator receives zero plus the tile's column sum; the two statistics
  results are copies of the accumulators.
-/
import proofs.«152382_j29643864277575_1_alg».proof.Proof.KI0Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point, on whole memrefs — the four inputs at their contents, every other buffer at anything — the
    body runs, leaving the inputs as they were and each other buffer with the pieces it stored written over it. -/
noncomputable def kernelRun0_A (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__k1_kernel_eq_skeleton]; unfold cc0__k1_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI0RunB.lean ====
/-
  The statistics kernel at a later grid point: the tile's dense layer is stored and each accumulator receives
  what the previous point left plus the tile's column sum; the two statistics results are copies of the
  accumulators.
-/
import proofs.«152382_j29643864277575_1_alg».proof.Proof.KI0RunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later point, on whole memrefs — the four inputs and the two accumulators at their contents, the three
    results' buffers at anything — the body runs, leaving the inputs as they were and each other buffer with the
    pieces it stored written over it. -/
noncomputable def kernelRun0_B (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32)
    (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__k1_kernel_eq_skeleton]; unfold cc0__k1_kernel_skel
    simp only [k0_part1_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4
    obtain rfl := harg8.eq_unread hfs0; obtain rfl := harg9.eq_unread hfs1
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KI0.lean ====
/-
  The statistics kernel over its twenty grid points.  After point `n` the first result's buffer holds the dense
  layer of tile `n`, and both accumulators (and the two statistics results, which are copies of them) hold the
  column sums of the dense layer, and of its square, over tiles `0 … n`: point `0` starts them from zero, point
  `n + 1` adds tile `n + 1` to what point `n` left.  The invariant between points carries the two accumulators at
  exactly those contents, which is what lets the body at a later point be run at all.
-/
import proofs.«152382_j29643864277575_1_alg».proof.Proof.KI0RunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in each buffer: the pieces its run found, read back -/

theorem cover0_A_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).1 S5000x128.size (by sl_kernel_rfl) y

def out0_A_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S5000x128 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc x0 x1 x2 x3).1)

theorem cover0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.1 S1x128.size (by sl_kernel_rfl) y

def out0_A_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc x0 x1 x2 x3).2.1)

theorem cover0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.2.1 S1x128.size (by sl_kernel_rfl) y

def out0_A_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc x0 x1 x2 x3).2.2.1)

theorem scover0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.2.2.1 S1x128.size (by sl_kernel_rfl) y

def sout0_A_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc x0 x1 x2 x3).2.2.2.1)

theorem scover0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc x0 x1 x2 x3).2.2.2.2.1 S1x128.size (by sl_kernel_rfl) y

def sout0_A_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc x0 x1 x2 x3).2.2.2.2.1)

theorem cover0_B_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).1 S5000x128.size (by sl_kernel_rfl) y

def out0_B_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S5000x128 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc x0 x1 x2 x3 xs0 xs1).1)

theorem cover0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.1 S1x128.size (by sl_kernel_rfl) y

def out0_B_5 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc x0 x1 x2 x3 xs0 xs1).2.1)

theorem cover0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.2.1 S1x128.size (by sl_kernel_rfl) y

def out0_B_6 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc x0 x1 x2 x3 xs0 xs1).2.2.1)

theorem scover0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.2.2.1 S1x128.size (by sl_kernel_rfl) y

def sout0_B_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc x0 x1 x2 x3 xs0 xs1).2.2.2.1)

theorem scover0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 hc x0 x1 x2 x3 xs0 xs1).2.2.2.2.1 S1x128.size (by sl_kernel_rfl) y

def sout0_B_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc x0 x1 x2 x3 xs0 xs1).2.2.2.2.1)

/-! ## Point by point -/

/-- What the three results' buffers and the two accumulators hold after the body at point `n`, in that order. -/
def outsAt0 (c : Dev nD) : (n : ℕ) → n < cfg0.N →
    Vec F S5000x128 .f32 × Vec F S1x128 .f32 × Vec F S1x128 .f32 × Vec F S1x128 .f32 × Vec F S1x128 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩))
  | n + 1, hn =>
    (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) :
    outsAt0 V c t.val t.isLt =
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0 t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt =
    (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact rfl

/-- The invariant before position `n`: before the first point both accumulators at anything; afterwards each at what
    the point before left in it; always the other kernel's scoped buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4800000 in
/-- The body at any point: the inputs' buffers hold their blocks; the grid position says which of the two cases
    applies; the invariant hands the body the accumulators (at anything at the first point, at what the point before
    left afterwards) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6]
  by_cases h0 : t.val = 0
  · rw [outsAt0_A V c t h0]
    unfold out0_A_4 out0_A_5 out0_A_6 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0 t).mpr h0) (iblk0 V c 0 t) (iblk0 V c 1 t) (iblk0 V c 2 t) (iblk0 V c 3 t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _ _ _ _)
  · rw [outsAt0_B V c t h0]
    unfold out0_B_4 out0_B_5 out0_B_6 sout0_B_0 sout0_B_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0 t).mp h)) (iblk0 V c 0 t) (iblk0 V c 1 t) (iblk0 V c 2 t) (iblk0 V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 HR Hg]
    · isplitr [Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the region hands the body is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region's own back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.KernelIdeal.Hand

end
-- ==== Proof.KI1.lean ====
/-
  The second kernel, one grid point at a time.  At every one of its twenty points it reads a tile of 5000 rows of
  the first layer's output together with the whole scale row, shift row, second weight matrix and bias row, and
  stores `max (h·scale + shift) 0 · W2 + b2` for the tile.  It keeps nothing between points and branches on
  nothing, so one statement covers every point: the inputs' buffers are left as found and the output's buffer
  holds that value.
-/
import proofs.«152382_j29643864277575_1_alg».proof.Proof.Gen.KernelIdeal.Launch
import proofs.«152382_j29643864277575_1_alg».proof.Proof.Gen.KernelIdeal.Skeleton
import proofs.«152382_j29643864277575_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current buffer holds its block at every point, whether or not it was fetched there: a window
    whose block index does not move is fetched once and its block stays in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_o : Rect S5000x128 := Rect.unit (s := S5000x128) ![0, 0] S5000x128.size inb_S5000x128_S5000x128_0_0
abbrev r1_big : Rect S5000x128 := r1_o
abbrev r1_row : Rect S1x128 := Rect.unit (s := S1x128) ![0, 0] S1x128.size inb_S1x128_S1x128_0_0
abbrev r1_w : Rect S128x128 := Rect.unit (s := S128x128) ![0, 0] S128x128.size inb_S128x128_S128x128_0_0

/-- What the body leaves in the output's buffer, from the five inputs' blocks: its one whole-buffer store. -/
def out1_5 (x0 : Vec F S5000x128 .f32) (x1 : Vec F S1x128 .f32) (x2 : Vec F S1x128 .f32) (x3 : Vec F S128x128 .f32) (x4 : Vec F S1x128 .f32) : Vec F S5000x128 .f32 :=
  View.canon [⟨r1_o, k1_pay1 (View.ld x0 r1_big) (View.ld x1 r1_row) (View.ld x2 r1_row) (View.ld x3 r1_w) (View.ld x4 r1_row)⟩]

/-- The one store covers the buffer. -/
theorem cover1_5 (p0 : Vec F S5000x128 .f32) (y : S5000x128.Idx) :
    ∃ pc ∈ ([⟨r1_o, p0⟩] : List (View.Piece (Elt F) S5000x128 .f32)), y ∈ pc.1.set :=
  View.cover_of_tiled [⟨r1_o, p0⟩] S5000x128.size (by rfl) y

set_option maxHeartbeats 2000000 in
/-- The body on whole memrefs, the inputs' at their contents and the output's at anything, runs to the
    continuation holding the inputs' as they were and the output's at `out1_5` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__k2_kernel i arg1 harg1 arg2 harg2 arg3 harg3 arg4 harg4 arg5 harg5 arg6 harg6) K := by
  simp only [cc1__k2_kernel_eq_skeleton]; unfold cc1__k2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The second kernel's proof data on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The whole program as a chain of four stretches — host operations, the statistics kernel, host operations, the
  second kernel — with the contents of every buffer named at each boundary: a host stretch applies its
  operations; a kernel leaves each of its arrays at what its write-backs produce and every other buffer as it
  found it.  Every weakly fair execution terminates with every unscoped buffer at the last boundary's contents;
  in particular each argument array is as it was launched, since no stretch writes one.
-/
import proofs.«152382_j29643864277575_1_alg».proof.Proof.KI0
import proofs.«152382_j29643864277575_1_alg».proof.Proof.KI1
import proofs.«152382_j29643864277575_1_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev Vi0 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (Vi0 m ρ) c).arrAt w cfg0.N
theorem W2_arr (c : Dev nD) (w : Fin cfg0.W) :
    W2 m ρ c (Proc.devRef .tc (Pipeline.arrRef spec0 w)) = (dat0 (Vi0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vo0 : (c : Dev nD) → (b : Ref sig .tc) → Buf (Elt F) ((c : Thread nD τ).loc b) := fun c b => W2 m ρ c b
theorem hF0 (c : Dev nD) (w : Fin cfg0.W) : (dat0 (Vi0 m ρ) c).arrAt w cfg0.N = Vo0 m ρ c (Pipeline.arrRef spec0 w) :=
  (W2_arr m ρ c w).symm
theorem hrest0 (c : Dev nD) : ∀ b, b ∉ Finset.univ.image (Pipeline.arrRef spec0) → Vo0 m ρ c b = Vi0 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev Vi1 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (Vi1 m ρ) c).arrAt w cfg1.N
theorem W4_arr (c : Dev nD) (w : Fin cfg1.W) :
    W4 m ρ c (Proc.devRef .tc (Pipeline.arrRef spec1 w)) = (dat1 (Vi1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vo1 : (c : Dev nD) → (b : Ref sig .tc) → Buf (Elt F) ((c : Thread nD τ).loc b) := fun c b => W4 m ρ c b
theorem hF1 (c : Dev nD) (w : Fin cfg1.W) : (dat1 (Vi1 m ρ) c).arrAt w cfg1.N = Vo1 m ρ c (Pipeline.arrRef spec1 w) :=
  (W4_arr m ρ c w).symm
theorem hrest1 (c : Dev nD) : ∀ b, b ∉ Finset.univ.image (Pipeline.arrRef spec1) → Vo1 m ρ c b = Vi1 m ρ c b :=
  fun b hb => W4_of_ne m ρ c b fun w e => hb (Finset.mem_image.mpr ⟨w, Finset.mem_univ _, e⟩)

/-! ## No stretch writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (Vi0 m ρ) c).arrAt_in 0 rfl _).trans (A_eq0 (Vi0 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := (W2_arr m ρ c 2).trans (((dat0 (Vi0 m ρ) c).arrAt_in 2 rfl _).trans (A_eq0 (Vi0 m ρ) c 2))
    _ = W0 m ρ c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 3).trans (((dat1 (Vi1 m ρ) c).arrAt_in 3 rfl _).trans (A_eq1 (Vi1 m ρ) c 3))
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vi0 m ρ) c
  | ⟨1, _⟩ => fun c => dat1 (Vi1 m ρ) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as stretches -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vi0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vi0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vi0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (Vi0 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (Vi0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vi0 m ρ c) (Vo0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vi1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vi1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vi1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vi1 m ρ c) (Vo1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The program runs to the end, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.Hand

end
-- ==== Proof.LibStoreReadBack.lean ====
/-
  Reading a buffer back after whole-buffer stores.

  A list of stores (last first) whose most recent member overwrote the whole buffer leaves that member's payload
  everywhere, whatever the earlier stores were; so a whole-buffer load right after it reads that payload.  (The
  library has the one-store case; a kernel that zeroes an accumulator and then adds to it needs the two-store case.)
-/
import Idealize.ShloMosaic.Lib.Pipeline.Value

noncomputable section

namespace Cert.LibStoreReadBack

open Idealize.ShloMosaic

/-- A rectangle of a rank-2 buffer that starts at `![0, 0]` starts at the origin. -/
theorem origin2 : (![0, 0] : Fin 2 → Nat) = fun _ => 0 := by
  funext a; fin_cases a <;> rfl

/-- A whole-buffer load of what a list of stores left, the LAST of them a whole-buffer store of `w`, reads `w`. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibStoreReadBack

end
-- ==== Proof.KIPieces.lean ====
/-
  What the statistics kernel leaves in each buffer at one grid point, in terms of its arithmetic: the first
  result's buffer holds the tile's dense layer; each accumulator holds its previous contents (zero at the first
  point, where it has just been overwritten with zeros) plus the tile's column sums — of the dense layer for the
  first, of its square for the second; the two statistics results hold copies of the accumulators.
-/
import proofs.«152382_j29643864277575_1_alg».proof.Proof.KI0
import Idealize.ShloMosaic.Lib.Pipeline.Value
import proofs.«152382_j29643864277575_1_alg».proof.Proof.LibStoreReadBack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibStoreReadBack (readCov_cons_unit_zero)

/-- A whole-buffer rectangle starts at the origin. -/
theorem hz2 : (![0, 0] : Fin 2 → Nat) = fun _ => 0 := Cert.LibStoreReadBack.origin2

/-! ## At the first point -/

theorem out0_A_4_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) :
    out0_A_4 c i arg1 harg1 arg2 harg2 arg3 harg3 arg4 harg4 arg5 harg5 arg6 harg6 arg7 harg7 arg8 harg8 arg9 harg9 hc x0 x1 x2 x3 = k0_pay3 x0 x1 x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 hc x0 x1 x2 x3)]
  unfold kernelRun0_A
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem sout0_A_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) :
    sout0_A_0 c i arg1 harg1 arg2 harg2 arg3 harg3 arg4 harg4 arg5 harg5 arg6 harg6 arg7 harg7 arg8 harg8 arg9 harg9 hc x0 x1 x2 x3 = k0_pay4 x0 x1 x2 x3 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc x0 x1 x2 x3)]
  unfold kernelRun0_A
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem out0_A_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) :
    out0_A_5 c i arg1 harg1 arg2 harg2 arg3 harg3 arg4 harg4 arg5 harg5 arg6 harg6 arg7 harg7 arg8 harg8 arg9 harg9 hc x0 x1 x2 x3 = k0_pay4 x0 x1 x2 x3 (k0_pay1 (F := F)) := by
  unfold out0_A_5
  rw [View.read_writes_eq_canon _ _ _ (cover0_A_5 c i arg1 harg1 arg2 harg2 arg3 harg3 arg4 harg4 arg5 harg5 arg6 harg6 arg7 harg7 arg8 harg8 arg9 harg9 hc x0 x1 x2 x3)]
  unfold kernelRun0_A
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem sout0_A_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) :
    sout0_A_1 c i arg1 harg1 arg2 harg2 arg3 harg3 arg4 harg4 arg5 harg5 arg6 harg6 arg7 harg7 arg8 harg8 arg9 harg9 hc x0 x1 x2 x3 = k0_pay5 x0 x1 x2 x3 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 hc x0 x1 x2 x3)]
  unfold kernelRun0_A
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem out0_A_6_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 : Vec F S5000x64 .f32) (x1 : Vec F S5000x64 .f32) (x2 : Vec F S64x128 .f32) (x3 : Vec F S1x128 .f32) :
    out0_A_6 c i arg1 harg1 arg2 harg2 arg3 harg3 arg4 harg4 arg5 harg5 arg6 harg6 arg7 harg7 arg8 harg8 arg9 harg9 hc x0 x1 x2 x3 = k0_pay5 x0 x1 x2 x3 (k0_pay2 (F := F)) := by
  unfold out0_A_6
  rw [View.read_writes_eq_canon _ _ _ (cover0_A_6 c i arg1 harg1 arg2 harg2 arg3 harg3 arg4 harg4 arg5 harg5 arg6 harg6 arg7 harg7 arg8 harg8 arg9 harg9 hc x0 x1 x2 x3)]
  unfold kernelRun0_A
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

/-! ## At a later point -/

theorem out0_B_4_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) :
    out0_B_4 c i arg1 harg1 arg2 harg2 arg3 harg3 arg4 harg4 arg5 harg5 arg6 harg6 arg7 harg7 arg8 harg8 arg9 harg9 hc x0 x1 x2 x3 xs0 xs1 = k0_pay3 x0 x1 x2 x3 := by
  unfold out0_B_4
  rw [View.read_writes_eq_canon _ _ _ (cover0_B_4 c i arg1 harg1 arg2 harg2 arg3 harg3 arg4 harg4 arg5 harg5 arg6 harg6 arg7 harg7 arg8 harg8 arg9 harg9 hc x0 x1 x2 x3 xs0 xs1)]
  unfold kernelRun0_B
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem sout0_B_0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) :
    sout0_B_0 c i arg1 harg1 arg2 harg2 arg3 harg3 arg4 harg4 arg5 harg5 arg6 harg6 arg7 harg7 arg8 harg8 arg9 harg9 hc x0 x1 x2 x3 xs0 xs1 = k0_pay4 x0 x1 x2 x3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc x0 x1 x2 x3 xs0 xs1)]
  unfold kernelRun0_B
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem out0_B_5_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) :
    out0_B_5 c i arg1 harg1 arg2 harg2 arg3 harg3 arg4 harg4 arg5 harg5 arg6 harg6 arg7 harg7 arg8 harg8 arg9 harg9 hc x0 x1 x2 x3 xs0 xs1 = k0_pay4 x0 x1 x2 x3 xs0 := by
  unfold out0_B_5
  rw [View.read_writes_eq_canon _ _ _ (cover0_B_5 c i arg1 harg1 arg2 harg2 arg3 harg3 arg4 harg4 arg5 harg5 arg6 harg6 arg7 harg7 arg8 harg8 arg9 harg9 hc x0 x1 x2 x3 xs0 xs1)]
  unfold kernelRun0_B
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem sout0_B_1_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) :
    sout0_B_1 c i arg1 harg1 arg2 harg2 arg3 harg3 arg4 harg4 arg5 harg5 arg6 harg6 arg7 harg7 arg8 harg8 arg9 harg9 hc x0 x1 x2 x3 xs0 xs1 = k0_pay5 x0 x1 x2 x3 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc x0 x1 x2 x3 xs0 xs1)]
  unfold kernelRun0_B
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

theorem out0_B_6_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 : Vec F S5000x64 .f32) (x1 : Vec F S5000x64 .f32) (x2 : Vec F S64x128 .f32) (x3 : Vec F S1x128 .f32) (xs0 : Vec F S1x128 .f32) (xs1 : Vec F S1x128 .f32) :
    out0_B_6 c i arg1 harg1 arg2 harg2 arg3 harg3 arg4 harg4 arg5 harg5 arg6 harg6 arg7 harg7 arg8 harg8 arg9 harg9 hc x0 x1 x2 x3 xs0 xs1 = k0_pay5 x0 x1 x2 x3 xs1 := by
  unfold out0_B_6
  rw [View.read_writes_eq_canon _ _ _ (cover0_B_6 c i arg1 harg1 arg2 harg2 arg3 harg3 arg4 harg4 arg5 harg5 arg6 harg6 arg7 harg7 arg8 harg8 arg9 harg9 hc x0 x1 x2 x3 xs0 xs1)]
  unfold kernelRun0_B
  dsimp only
  sl_unfold_words
  simp only [View.canon_unit_zero (S := S5000x128) hz2, View.canon_unit_zero (S := S1x128) hz2, View.canon_cons_unit_zero (S := S1x128) hz2,
    View.readCov_unit_zero (S := S1x128) _ hz2, readCov_cons_unit_zero (S := S1x128) _ hz2,
    View.readAt_eq_ld, harg1.read_unread, harg2.read_unread, harg3.read_unread, harg4.read_unread, harg8.read_unread, harg9.read_unread,
    View.ld_unit_zero (S := S5000x64) hz2, View.ld_unit_zero (S := S64x128) hz2, View.ld_unit_zero (S := S1x128) hz2]

end Cert.KernelIdeal.Hand

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibBiasRow.lean ====
/-
  A dense layer whose bias arrives as a `[1, N]` row.

  A vector unit that is handed the bias already laid out as one row of `N` entries forms `x · w + b` by a matrix
  multiplication into a zero accumulator plus that row — passed through a shape cast that changes nothing — broadcast over
  the `M` rows. Entry `(p, q)` of the result is `(∑ k, x (p, k) · w (k, q)) + b (0, q)`: the array `dense x w (rowBias b)`.
-/
import proofs.«152382_j29643864277575_1_alg».proof.Proof.LibDenseLayer
import proofs.«152382_j29643864277575_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibBiasRow

open Idealize.ShloMosaic Idealize.ShloMosaic.ValueIdx Cert.DenseLayer

/-- A `[1, N]` bias row as a function of the column. -/
def rowBias {N : ℕ} (b : (⟨2, ![1, N]⟩ : Shape).Idx → EReal) : Fin N → EReal := fun q => b (ix2 (0 : Fin 1) q)

/-- The layer as a vector unit spells it when the bias is a `[1, N]` row: the product into a zero accumulator, plus the row
    broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]

end Cert.LibBiasRow

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«152382_j29643864277575_1_alg».proof.Proof.LibDenseLayer
import proofs.«152382_j29643864277575_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.KIPay.lean ====
/-
  The arithmetic of the two kernels, read entry by entry on the extended reals.

  * The two accumulator rows start at zero.
  * The first dense layer on a tile of 5000 rows: entry (p, q) is (∑ k, (x0 (p, k) + x1 (p, k)) · x2 (k, q)) + x3 (0, q).
    A narrowing format change is the identity on extended reals, a product into a zero accumulator is the plain
    sum of products, and the bias row is broadcast over the rows.
  * The running column sums: the accumulator row plus the sum over the tile's 5000 rows of the layer's
    entries, respectively of their squares.
  * The second kernel: entry (p, q) is (∑ k, max (y0 (p, k) · y1 (0, k) + y2 (0, k)) 0 · y3 (k, q)) + y4 (0, q).
-/
import proofs.«152382_j29643864277575_1_alg».proof.Proof.Gen.KernelIdeal.Skeleton
import proofs.«152382_j29643864277575_1_alg».proof.Proof.LibPlainMatmul
import proofs.«152382_j29643864277575_1_alg».proof.Proof.LibBiasRow
import proofs.«152382_j29643864277575_1_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-! ### The accumulator rows start at zero -/

theorem pay1_apply (q : Fin 128) : k0_pay1 (F := Ideal) (ix2 (0 : Fin 1) q) = 0 := by
  unfold k0_pay1
  rw [shapeCast_self]
  exact Ideal.ofBits_zero_f32

theorem pay2_apply (q : Fin 128) : k0_pay2 (F := Ideal) (ix2 (0 : Fin 1) q) = 0 := by
  unfold k0_pay2
  rw [shapeCast_self]
  exact Ideal.ofBits_zero_f32

/-! ### The first dense layer on a tile -/

theorem pay3_apply (x0 x1 : Vec Ideal S5000x64 .f32) (x2 : Vec Ideal S64x128 .f32) (x3 : Vec Ideal S1x128 .f32)
    (p : Fin 5000) (q : Fin 128) :
    k0_pay3 (F := Ideal) x0 x1 x2 x3 (ix2 p q)
      = (∑ k : Fin 64, (x0 (ix2 p k) + x1 (ix2 p k)) * x2 (ix2 k q)) + x3 (ix2 (0 : Fin 1) q) := by
  unfold k0_pay3
  simp only [shapeCast_self]
  show FloatOps.matmul (F := Ideal) dot_S5000x64_S64x128_S5000x128_1_0_0_1_n_n none
        (truncf .bf16 (addf x0 x1) bitsLt_bf16_f32) (truncf .bf16 x2 bitsLt_bf16_f32)
        (constant ⟨2, ![5000, 128]⟩ .f32 0x00000000#32) (ix2 p q)
      + broadcastTo ⟨2, ![5000, 128]⟩ x3 broadcasts_S1x128_S5000x128 (ix2 p q) = _
  rw [Cert.LibPlainMatmul.matmul_plain_zero_apply dot_S5000x64_S64x128_S5000x128_1_0_0_1_n_n rfl, broadcastTo_1b_ab_apply]
  rfl

/-! ### A column sum over the tile's rows -/

/-- The sum along the rows of a 5000 × 128 tile, read at column q, is the sum over the 5000 rows of the entries of
    that column. -/
theorem lane_sum_apply (src : FVec Ideal S5000x128 .f32) (hφ : FKind.Formats .f32)
    (hacc : (0x00000000#32 : BitVec 32) = FKind.add.neutral .f32 hφ) (q : Fin 128) :
    multiReduction (F := Ideal) .add [0] S128 src 0x00000000#32 reduces_S5000x128_S128 hφ hacc (ix1 q)
      = ∑ r : Fin 5000, src (ix2 r q) := by
  refine (Ideal.multiReduction_add_single src 0x00000000#32 reduces_S5000x128_S128 hφ hacc (ix1 q)).trans ?_
  refine Finset.sum_congr rfl fun r _ => congrArg src ?_
  funext a
  match a with
  | ⟨0, _⟩ => rfl
  | ⟨1, _⟩ => rfl

theorem pay4_apply (x0 x1 : Vec Ideal S5000x64 .f32) (x2 : Vec Ideal S64x128 .f32) (x3 : Vec Ideal S1x128 .f32)
    (a : Vec Ideal S1x128 .f32) (q : Fin 128) :
    k0_pay4 (F := Ideal) x0 x1 x2 x3 a (ix2 (0 : Fin 1) q)
      = a (ix2 (0 : Fin 1) q) + ∑ r : Fin 5000, k0_pay3 (F := Ideal) x0 x1 x2 x3 (ix2 r q) := by
  unfold k0_pay4
  simp only [shapeCast_self]
  show a (ix2 (0 : Fin 1) q)
      + shapeCast ⟨2, ![1, 128]⟩
          (multiReduction (F := Ideal) .add [0] S128 (k0_pay3 (F := Ideal) x0 x1 x2 x3) 0x00000000#32 reduces_S5000x128_S128
            (.inl rfl) rfl) shapeCasts_S128_S1x128 (ix2 (0 : Fin 1) q) = _
  rw [shapeCast_a_1a_apply]
  exact congrArg (a (ix2 (0 : Fin 1) q) + ·) (lane_sum_apply _ _ _ q)

theorem pay5_apply (x0 x1 : Vec Ideal S5000x64 .f32) (x2 : Vec Ideal S64x128 .f32) (x3 : Vec Ideal S1x128 .f32)
    (a : Vec Ideal S1x128 .f32) (q : Fin 128) :
    k0_pay5 (F := Ideal) x0 x1 x2 x3 a (ix2 (0 : Fin 1) q)
      = a (ix2 (0 : Fin 1) q)
        + ∑ r : Fin 5000, k0_pay3 (F := Ideal) x0 x1 x2 x3 (ix2 r q) * k0_pay3 (F := Ideal) x0 x1 x2 x3 (ix2 r q) := by
  unfold k0_pay5
  simp only [shapeCast_self]
  show a (ix2 (0 : Fin 1) q)
      + shapeCast ⟨2, ![1, 128]⟩
          (multiReduction (F := Ideal) .add [0] S128
            (mulf (k0_pay3 (F := Ideal) x0 x1 x2 x3) (k0_pay3 (F := Ideal) x0 x1 x2 x3)) 0x00000000#32 reduces_S5000x128_S128
            (.inl rfl) rfl) shapeCasts_S128_S1x128 (ix2 (0 : Fin 1) q) = _
  rw [shapeCast_a_1a_apply]
  exact congrArg (a (ix2 (0 : Fin 1) q) + ·) (lane_sum_apply _ _ _ q)

/-! ### The second kernel -/

theorem k1_apply (y0 : Vec Ideal S5000x128 .f32) (y1 y2 : Vec Ideal S1x128 .f32) (y3 : Vec Ideal S128x128 .f32)
    (y4 : Vec Ideal S1x128 .f32) (p : Fin 5000) (q : Fin 128) :
    k1_pay1 (F := Ideal) y0 y1 y2 y3 y4 (ix2 p q)
      = (∑ k : Fin 128, max (y0 (ix2 p k) * y1 (ix2 (0 : Fin 1) k) + y2 (ix2 (0 : Fin 1) k)) 0 * y3 (ix2 k q))
        + y4 (ix2 (0 : Fin 1) q) := by
  unfold k1_pay1
  simp only [shapeCast_self]
  show FloatOps.matmul (F := Ideal) dot_S5000x128_S128x128_S5000x128_1_0_0_1_n_n none
        (truncf .bf16
          (maximumf
            (addf (mulf y0 (broadcastTo ⟨2, ![5000, 128]⟩ y1 broadcasts_S1x128_S5000x128))
              (broadcastTo ⟨2, ![5000, 128]⟩ y2 broadcasts_S1x128_S5000x128))
            (broadcast ⟨2, ![5000, 128]⟩ (Scalar.ofBits (F := Ideal) .f32 0x00000000#32))) bitsLt_bf16_f32)
        (truncf .bf16 y3 bitsLt_bf16_f32) (constant ⟨2, ![5000, 128]⟩ .f32 0x00000000#32) (ix2 p q)
      + broadcastTo ⟨2, ![5000, 128]⟩ y4 broadcasts_S1x128_S5000x128 (ix2 p q) = _
  rw [Cert.LibPlainMatmul.matmul_plain_zero_apply dot_S5000x128_S128x128_S5000x128_1_0_0_1_n_n rfl, broadcastTo_1b_ab_apply]
  refine congrArg (· + y4 (ix2 (0 : Fin 1) q)) (Finset.sum_congr rfl fun k _ => ?_)
  show max (y0 (ix2 p k) * broadcastTo ⟨2, ![5000, 128]⟩ y1 broadcasts_S1x128_S5000x128 (ix2 p k)
        + broadcastTo ⟨2, ![5000, 128]⟩ y2 broadcasts_S1x128_S5000x128 (ix2 p k)) (Ideal.ofBits .f32 0x00000000#32)
      * y3 (ix2 k q) = _
  rw [broadcastTo_1b_ab_apply, broadcastTo_1b_ab_apply, Ideal.ofBits_zero_f32]

end Cert.KernelIdeal.Pay

end
-- ==== Proof.Spec.lean ====
/-
  The mathematics both programs compute, over the extended reals, as plain functions of plain indices.

  A table `h : Fin 100000 → Fin 128 → EReal` (the first dense layer's output: one row per node) is normalised
  column by column with its own column statistics and fed through a second dense layer.  The two programs
  spell the statistics and the normalisation differently:

  * one keeps running column sums of `h` and of `h²` over twenty tiles of 5000 rows, takes
    `var = E[h²] − (E[h])²`, and applies the affine map `h ↦ h·(γ·r) + (β − μ·(γ·r))`, `r = rsqrt (var + ε)`;
  * the other sums whole columns, takes `var = E[(h − μ)²]`, and applies `h ↦ (h − μ)·r·γ + β`.

  On real data the two agree: `E[(h − μ)²] = E[h²] − μ²`, and the two affine maps are one polynomial identity.
  Both laws cancel terms, so they need every entry finite.
-/
import Idealize.ShloMosaic.PureOps.Ideal
import Mathlib.Algebra.BigOperators.Fin

noncomputable section

namespace Cert.Bridge

open Idealize.ShloMosaic

/-- Row `r` of tile `t`: tiles are consecutive runs of 5000 rows. -/
def rowOf (t : Fin 20) (r : Fin 5000) : Fin 100000 := ⟨5000 * t.val + r.val, by omega⟩

/-- The first dense layer on the aggregated features: `(x + agg)·W1 + b1`, entry by entry. -/
def dense1 (x agg : Fin 100000 → Fin 64 → EReal) (W1 : Fin 64 → Fin 128 → EReal) (b1 : Fin 128 → EReal)
    (n : Fin 100000) (j : Fin 128) : EReal :=
  (∑ k : Fin 64, (x n k + agg n k) * W1 k j) + b1 j

/-- The sum of column `j` of `g` over the rows of tile `t`. -/
def tileSum (g : Fin 100000 → Fin 128 → EReal) (t : Fin 20) (j : Fin 128) : EReal :=
  ∑ r : Fin 5000, g (rowOf t r) j

/-- The running sum of column `j` after the first `t` tiles: zero, then one tile's sum added at a time. -/
def runSum (g : Fin 100000 → Fin 128 → EReal) (j : Fin 128) : ℕ → EReal
  | 0 => 0
  | t + 1 => runSum g j t + (if ht : t < 20 then tileSum g ⟨t, ht⟩ j else 0)

section Forms

variable (h : Fin 100000 → Fin 128 → EReal) (N ε : EReal) (γ β : Fin 128 → EReal)
  (W2 : Fin 128 → Fin 128 → EReal) (b2 : Fin 128 → EReal)

/-! ### The tiled spelling: running sums, `E[h²] − μ²`, scale and shift folded first -/

def tMean (j : Fin 128) : EReal := Ideal.div (runSum h j 20) N
def tVar (j : Fin 128) : EReal :=
  Ideal.div (runSum (fun n j => h n j * h n j) j 20) N - tMean h N j * tMean h N j
def tScale (j : Fin 128) : EReal := γ j * Ideal.rsqrt (tVar h N j + ε)
def tShift (j : Fin 128) : EReal := β j - tMean h N j * tScale h N ε γ j
/-- The tiled program's result at row `n`, column `j`. -/
def tOut (n : Fin 100000) (j : Fin 128) : EReal :=
  (∑ k : Fin 128, max (h n k * tScale h N ε γ k + tShift h N ε γ β k) 0 * W2 k j) + b2 j

/-! ### The whole-column spelling: `E[(h − μ)²]`, centre then scale -/

def wMean (j : Fin 128) : EReal := Ideal.div (∑ n : Fin 100000, h n j) N
def wVar (j : Fin 128) : EReal :=
  Ideal.div (∑ n : Fin 100000, (h n j - wMean h N j) * (h n j - wMean h N j)) N
/-- The whole-column program's result at row `n`, column `j`. -/
def wOut (n : Fin 100000) (j : Fin 128) : EReal :=
  (∑ k : Fin 128, max ((h n k - wMean h N k) * Ideal.rsqrt (wVar h N k + ε) * γ k + β k) 0 * W2 k j) + b2 j

end Forms

/-- A table of extended reals all of whose entries are real numbers. -/
def IsReal {α β : Type} (g : α → β → EReal) : Prop := ∀ a b, ∃ r : ℝ, g a b = (r : EReal)
/-- The same for a vector. -/
def IsReal₁ {α : Type} (g : α → EReal) : Prop := ∀ a, ∃ r : ℝ, g a = (r : EReal)

end Cert.Bridge

end
-- ==== Proof.KI0Value.lean ====
/-
  What the statistics kernel leaves in its three result arrays, as functions of the arrays it found.

  Write `h` for the first dense layer of the whole table: `h n j = ∑ k, (x n k + agg n k)·W1 k j + b1 j`.
  * Tile `t` of the first result is rows `5000·t … 5000·t + 4999` of `h`, and the tiles cover the array: the first
    result ends holding `h`.
  * After point `n` the first accumulator holds, in column `j`, the running sum of column `j` of `h` over tiles
    `0 … n` (zero, then one tile's column sum added per point), and the second the same for `h²`; the two statistics
    results are written back once, after the last point, so they end holding the running sums over all twenty tiles.
-/
import proofs.«152382_j29643864277575_1_alg».proof.Proof.KIPieces
import proofs.«152382_j29643864277575_1_alg».proof.Proof.KIPay
import proofs.«152382_j29643864277575_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Bridge

variable (V : (c : Dev nD) → (b : Ref sig .tc) → Buf (Elt Ideal) ((c : Thread nD τ).loc b)) (c : Dev nD)

/-- A grid point as a tile number. -/
def tileOf (t : Fin cfg0.N) : Fin 20 := ⟨t.val, by have := t.isLt; have h : cfg0.N = 20 := N_0; omega⟩

/-- Where each window's block sits at each point: the row-tiled windows at block `(t, 0)`, the others at `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The input blocks, read at coordinates -/

theorem blk0_0 (t : Fin cfg0.N) (r : Fin 5000) (k : Fin 64) :
    iblk0 V c 0 t (ix2 r k) = V c main_arg0 (ix2 (rowOf (tileOf t) r) k) := by
  show V c main_arg0 (((cfg0.win 0).blk t).view.emb (ix2 r k)) = _
  refine congrArg _ ?_
  obtain ⟨e0, e1, -⟩ := idx0 t
  funext a; apply Fin.ext
  match a with
  | ⟨0, _⟩ => show win0_0.index t (0 : Fin 2) * 5000 + 1 * r.val = 5000 * t.val + r.val; omega
  | ⟨1, _⟩ => show win0_0.index t (1 : Fin 2) * 64 + 1 * k.val = k.val; omega

theorem blk0_1 (t : Fin cfg0.N) (r : Fin 5000) (k : Fin 64) :
    iblk0 V c 1 t (ix2 r k) = V c main_v13 (ix2 (rowOf (tileOf t) r) k) := by
  show V c main_v13 (((cfg0.win 1).blk t).view.emb (ix2 r k)) = _
  refine congrArg _ ?_
  obtain ⟨-, -, e0, e1, -⟩ := idx0 t
  funext a; apply Fin.ext
  match a with
  | ⟨0, _⟩ => show win0_1.index t (0 : Fin 2) * 5000 + 1 * r.val = 5000 * t.val + r.val; omega
  | ⟨1, _⟩ => show win0_1.index t (1 : Fin 2) * 64 + 1 * k.val = k.val; omega

theorem blk0_2 (t : Fin cfg0.N) (k : Fin 64) (q : Fin 128) :
    iblk0 V c 2 t (ix2 k q) = V c main_arg3 (ix2 k q) := by
  show V c main_arg3 (((cfg0.win 2).blk t).view.emb (ix2 k q)) = _
  refine congrArg _ ?_
  obtain ⟨-, -, -, -, e0, e1, -⟩ := idx0 t
  funext a; apply Fin.ext
  match a with
  | ⟨0, _⟩ => show win0_2.index t (0 : Fin 2) * 64 + 1 * k.val = k.val; omega
  | ⟨1, _⟩ => show win0_2.index t (1 : Fin 2) * 128 + 1 * q.val = q.val; omega

theorem blk0_3 (t : Fin cfg0.N) (q : Fin 128) :
    iblk0 V c 3 t (ix2 (0 : Fin 1) q) = V c main_v14 (ix2 (0 : Fin 1) q) := by
  show V c main_v14 (((cfg0.win 3).blk t).view.emb (ix2 (0 : Fin 1) q)) = _
  refine congrArg _ ?_
  obtain ⟨-, -, -, -, -, -, e0, e1, -⟩ := idx0 t
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-! ## The first dense layer of the whole table -/

/-- `h`: the first dense layer on the aggregated features, from the arrays the region finds. -/
def hV : Fin 100000 → Fin 128 → EReal :=
  dense1 (fun n k => V c main_arg0 (ix2 n k)) (fun n k => V c main_v13 (ix2 n k))
    (fun k j => V c main_arg3 (ix2 k j)) (fun j => V c main_v14 (ix2 (0 : Fin 1) j))

/-- The tile's dense layer is the tile's rows of `h`. -/
theorem tile_dense (t : Fin cfg0.N) (r : Fin 5000) (q : Fin 128) :
    k0_pay3 (F := Ideal) (iblk0 V c 0 t) (iblk0 V c 1 t) (iblk0 V c 2 t) (iblk0 V c 3 t) (ix2 r q)
      = hV V c (rowOf (tileOf t) r) q := by
  refine (Cert.KernelIdeal.Pay.pay3_apply _ _ _ _ r q).trans ?_
  unfold hV dense1
  simp only [blk0_0, blk0_1, blk0_2, blk0_3]

/-! ## What each point leaves, in terms of the arithmetic -/

theorem out4_eq (t : Fin cfg0.N) :
    (outsAt0 V c t.val t.isLt).1 = k0_pay3 (F := Ideal) (iblk0 V c 0 t) (iblk0 V c 1 t) (iblk0 V c 2 t) (iblk0 V c 3 t) := by
  by_cases h0 : t.val = 0
  · have hl := congrArg (fun p => p.1) (outsAt0_A V c t h0)
    dsimp only at hl
    rw [hl, out0_A_4_eq]
  · have hl := congrArg (fun p => p.1) (outsAt0_B V c t h0)
    dsimp only at hl
    rw [hl, out0_B_4_eq]

/-- The statistics results are copies of the accumulators. -/
theorem out5_eq_acc (t : Fin cfg0.N) : (outsAt0 V c t.val t.isLt).2.1 = (outsAt0 V c t.val t.isLt).2.2.2.1 := by
  by_cases h0 : t.val = 0
  · have hl := congrArg (fun p => p.2.1) (outsAt0_A V c t h0)
    have hr := congrArg (fun p => p.2.2.2.1) (outsAt0_A V c t h0)
    dsimp only at hl hr
    rw [hl, hr, out0_A_5_eq, sout0_A_0_eq]
  · have hl := congrArg (fun p => p.2.1) (outsAt0_B V c t h0)
    have hr := congrArg (fun p => p.2.2.2.1) (outsAt0_B V c t h0)
    dsimp only at hl hr
    rw [hl, hr, out0_B_5_eq, sout0_B_0_eq]

theorem out6_eq_acc (t : Fin cfg0.N) : (outsAt0 V c t.val t.isLt).2.2.1 = (outsAt0 V c t.val t.isLt).2.2.2.2 := by
  by_cases h0 : t.val = 0
  · have hl := congrArg (fun p => p.2.2.1) (outsAt0_A V c t h0)
    have hr := congrArg (fun p => p.2.2.2.2) (outsAt0_A V c t h0)
    dsimp only at hl hr
    rw [hl, hr, out0_A_6_eq, sout0_A_1_eq]
  · have hl := congrArg (fun p => p.2.2.1) (outsAt0_B V c t h0)
    have hr := congrArg (fun p => p.2.2.2.2) (outsAt0_B V c t h0)
    dsimp only at hl hr
    rw [hl, hr, out0_B_6_eq, sout0_B_1_eq]

/-! ## The accumulators are the running sums -/

theorem tile_sum (t : Fin cfg0.N) (q : Fin 128) :
    ∑ r : Fin 5000, k0_pay3 (F := Ideal) (iblk0 V c 0 t) (iblk0 V c 1 t) (iblk0 V c 2 t) (iblk0 V c 3 t) (ix2 r q)
      = tileSum (hV V c) (tileOf t) q :=
  Finset.sum_congr rfl fun r _ => tile_dense V c t r q

theorem tile_sum_sq (t : Fin cfg0.N) (q : Fin 128) :
    ∑ r : Fin 5000, k0_pay3 (F := Ideal) (iblk0 V c 0 t) (iblk0 V c 1 t) (iblk0 V c 2 t) (iblk0 V c 3 t) (ix2 r q)
        * k0_pay3 (F := Ideal) (iblk0 V c 0 t) (iblk0 V c 1 t) (iblk0 V c 2 t) (iblk0 V c 3 t) (ix2 r q)
      = tileSum (fun n j => hV V c n j * hV V c n j) (tileOf t) q :=
  Finset.sum_congr rfl fun r _ => by rw [tile_dense V c t r q]

theorem runSum_succ (g : Fin 100000 → Fin 128 → EReal) (j : Fin 128) (n : ℕ) (hn : n < 20) :
    runSum g j (n + 1) = runSum g j n + tileSum g ⟨n, hn⟩ j := by
  rw [runSum, dif_pos hn]

/-- After point `n` the first accumulator holds the running column sums of `h` over tiles `0 … n`. -/
theorem accS : ∀ (n : ℕ) (hn : n < cfg0.N) (q : Fin 128),
    (outsAt0 V c n hn).2.2.2.1 (ix2 (0 : Fin 1) q) = runSum (hV V c) q (n + 1)
  | 0, hn, q => by
    have h := congrArg (fun p => p.2.2.2.1) (outsAt0_A V c ⟨0, hn⟩ rfl)
    dsimp only at h
    rw [h, sout0_A_0_eq]
    refine (Cert.KernelIdeal.Pay.pay4_apply _ _ _ _ _ q).trans ?_
    rw [Cert.KernelIdeal.Pay.pay1_apply, tile_sum V c ⟨0, hn⟩ q, runSum_succ _ _ 0 (by norm_num)]
    rfl
  | n + 1, hn, q => by
    have h := congrArg (fun p => p.2.2.2.1) (outsAt0_B V c ⟨n + 1, hn⟩ (Nat.succ_ne_zero n))
    dsimp only at h
    rw [h, sout0_B_0_eq]
    refine (Cert.KernelIdeal.Pay.pay4_apply _ _ _ _ _ q).trans ?_
    have hN : n + 1 < 20 := by have h20 : cfg0.N = 20 := N_0; omega
    rw [tile_sum V c ⟨n + 1, hn⟩ q, runSum_succ _ _ (n + 1) hN]
    exact congrArg (· + _) (accS n (Nat.lt_of_succ_lt hn) q)

/-- After point `n` the second accumulator holds the running column sums of `h²` over tiles `0 … n`. -/
theorem accQ : ∀ (n : ℕ) (hn : n < cfg0.N) (q : Fin 128),
    (outsAt0 V c n hn).2.2.2.2 (ix2 (0 : Fin 1) q) = runSum (fun n j => hV V c n j * hV V c n j) q (n + 1)
  | 0, hn, q => by
    have h := congrArg (fun p => p.2.2.2.2) (outsAt0_A V c ⟨0, hn⟩ rfl)
    dsimp only at h
    rw [h, sout0_A_1_eq]
    refine (Cert.KernelIdeal.Pay.pay5_apply _ _ _ _ _ q).trans ?_
    rw [Cert.KernelIdeal.Pay.pay2_apply, tile_sum_sq V c ⟨0, hn⟩ q, runSum_succ _ _ 0 (by norm_num)]
    rfl
  | n + 1, hn, q => by
    have h := congrArg (fun p => p.2.2.2.2) (outsAt0_B V c ⟨n + 1, hn⟩ (Nat.succ_ne_zero n))
    dsimp only at h
    rw [h, sout0_B_1_eq]
    refine (Cert.KernelIdeal.Pay.pay5_apply _ _ _ _ _ q).trans ?_
    have hN : n + 1 < 20 := by have h20 : cfg0.N = 20 := N_0; omega
    rw [tile_sum_sq V c ⟨n + 1, hn⟩ q, runSum_succ _ _ (n + 1) hN]
    exact congrArg (· + _) (accQ n (Nat.lt_of_succ_lt hn) q)

end Cert.KernelIdeal.Hand

end
-- ==== Proof.KI0Final.lean ====
/-
  The statistics kernel's three result arrays after all twenty points.  A point's block of the first result is a
  run of 5000 rows, and the twenty runs tile the array: it ends holding the first dense layer `h` of the whole
  table.  The two statistics results are one block each, written back after the last point only: they end holding
  the column sums of `h` and of `h²` accumulated over all twenty tiles.
-/
import proofs.«152382_j29643864277575_1_alg».proof.Proof.KI0Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Bridge

variable (V : (c : Dev nD) → (b : Ref sig .tc) → Buf (Elt Ideal) ((c : Thread nD τ).loc b)) (c : Dev nD)

/-! ## An index lies in a point's block iff each coordinate lies in the block's range -/

theorem mem_blk0_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15_0).slice (win0_4.rect t)).set ↔ _
  rw [View.set_slice_whole, Rect.mem_set_unit]
  exact Iff.rfl
theorem mem_blk0_5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v15_1).slice (win0_5.rect t)).set ↔ _
  rw [View.set_slice_whole, Rect.mem_set_unit]
  exact Iff.rfl
theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v15_2).slice (win0_6.rect t)).set ↔ _
  rw [View.set_slice_whole, Rect.mem_set_unit]
  exact Iff.rfl

/-! ## The first result: the dense layer of the whole table -/

def G4 : S100000x128.Idx → EReal := fun i => hV V c (i 0) (i 1)

theorem flushed0_4_eq (t : Fin cfg0.N) :
    (dat0 V c).flushed 4 t = ((cfg0.win 4).blk t).view.read (Elt Ideal) (G4 V c) := by
  show (cfg0.win 4).cut (grid0.coords t) ((dat0 V c).after 4 t) = _
  rw [after0_4, out4_eq V c t]
  funext j
  obtain ⟨r, q, rfl⟩ : ∃ (r : Fin 5000) (q : Fin 128), j = ix2 r q := ⟨j 0, j 1, eq_ix2 j⟩
  show k0_pay3 (F := Ideal) (iblk0 V c 0 t) (iblk0 V c 1 t) (iblk0 V c 2 t) (iblk0 V c 3 t) (ix2 r q)
    = G4 V c (((cfg0.win 4).blk t).view.emb (ix2 r q))
  rw [tile_dense V c t r q]
  unfold G4
  obtain ⟨-, -, -, -, -, -, -, -, e0, e1, -⟩ := idx0 t
  have ha : rowOf (tileOf t) r = (((cfg0.win 4).blk t).view.emb (ix2 r q)) 0 :=
    Fin.ext (by show 5000 * t.val + r.val = win0_4.index t (0 : Fin 2) * 5000 + 1 * r.val; omega)
  have hb : q = (((cfg0.win 4).blk t).view.emb (ix2 r q)) 1 :=
    Fin.ext (by show q.val = win0_4.index t (1 : Fin 2) * 128 + 1 * q.val; omega)
  rw [← ha, ← hb]

theorem cover0_4_arr (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hN' : grid0.N = 20 := N_0
  refine ⟨⟨(i 0).val / 5000, by omega⟩, flush0_4 _, ?_⟩
  rw [mem_blk0_4]
  obtain ⟨-, -, -, -, -, -, -, -, e0, e1, -⟩ := idx0 ⟨(i 0).val / 5000, by omega⟩
  have e0' : win0_4.index ⟨(i 0).val / 5000, by omega⟩ (0 : Fin 2) = (i 0).val / 5000 := e0
  intro a
  match a with
  | ⟨0, _⟩ => show win0_4.index _ (0 : Fin 2) * 5000 ≤ (i 0).val ∧ (i 0).val < win0_4.index _ (0 : Fin 2) * 5000 + 5000; omega
  | ⟨1, _⟩ => show win0_4.index _ (1 : Fin 2) * 128 ≤ (i 1).val ∧ (i 1).val < win0_4.index _ (1 : Fin 2) * 128 + 128; omega

theorem final0_4 : (dat0 V c).arrAt 4 cfg0.N = G4 V c :=
  (dat0 V c).arrAt_eq_of_cover 4 (G4 V c) (fun t _ => flushed0_4_eq V c t) (cover0_4_arr)

/-! ## The two statistics results -/

/-- The first statistics result ends holding the running sums over all twenty tiles. -/
def G5 : S1x128.Idx → EReal := fun i => runSum (hV V c) (i 1) 20

theorem flushed0_5_eq (t : Fin cfg0.N) (hf : (cfg0.win 5).flush t = true) :
    (dat0 V c).flushed 5 t = ((cfg0.win 5).blk t).view.read (Elt Ideal) (G5 V c) := by
  have h19 : t.val = 19 := by
    have h1 := (flush0_5 t).mp hf; have h2 := t.isLt; have hN : cfg0.N = 20 := N_0; omega
  show (cfg0.win 5).cut (grid0.coords t) ((dat0 V c).after 5 t) = _
  rw [after0_5, out5_eq_acc V c t]
  funext j
  obtain ⟨z, q, rfl⟩ : ∃ (z : Fin 1) (q : Fin 128), j = ix2 z q := ⟨j 0, j 1, eq_ix2 j⟩
  obtain rfl : z = 0 := Subsingleton.elim _ _
  show (outsAt0 V c t.val t.isLt).2.2.2.1 (ix2 (0 : Fin 1) q) = G5 V c (((cfg0.win 5).blk t).view.emb (ix2 (0 : Fin 1) q))
  rw [accS V c t.val t.isLt q]
  unfold G5
  obtain ⟨-, -, -, -, -, -, -, -, -, -, e0, e1, -⟩ := idx0 t
  have hb : q = (((cfg0.win 5).blk t).view.emb (ix2 (0 : Fin 1) q)) 1 :=
    Fin.ext (by show q.val = win0_5.index t (1 : Fin 2) * 128 + 1 * q.val; omega)
  rw [← hb, h19]

theorem cover0_5_arr (i : S1x128.Idx) : ∃ t : Fin cfg0.N, (cfg0.win 5).flush t = true ∧ i ∈ ((cfg0.win 5).blk t).view.set := by
  have hi0 : (i 0).val < 1 := (i 0).isLt
  have hi1 : (i 1).val < 128 := (i 1).isLt
  have hN : cfg0.N = 20 := N_0
  have hN' : grid0.N = 20 := N_0
  refine ⟨⟨19, by omega⟩, (flush0_5 _).mpr rfl, ?_⟩
  rw [mem_blk0_5]
  obtain ⟨-, -, -, -, -, -, -, -, -, -, e0, e1, -⟩ := idx0 ⟨19, by omega⟩
  intro a
  match a with
  | ⟨0, _⟩ => show win0_5.index _ (0 : Fin 2) * 1 ≤ (i 0).val ∧ (i 0).val < win0_5.index _ (0 : Fin 2) * 1 + 1; omega
  | ⟨1, _⟩ => show win0_5.index _ (1 : Fin 2) * 128 ≤ (i 1).val ∧ (i 1).val < win0_5.index _ (1 : Fin 2) * 128 + 128; omega

theorem final0_5 : (dat0 V c).arrAt 5 cfg0.N = G5 V c :=
  (dat0 V c).arrAt_eq_of_cover 5 (G5 V c) (fun t hf => flushed0_5_eq V c t hf) (cover0_5_arr)

/-- The second statistics result ends holding the running sums over all twenty tiles. -/
def G6 : S1x128.Idx → EReal := fun i => runSum (fun n j => hV V c n j * hV V c n j) (i 1) 20

theorem flushed0_6_eq (t : Fin cfg0.N) (hf : (cfg0.win 6).flush t = true) :
    (dat0 V c).flushed 6 t = ((cfg0.win 6).blk t).view.read (Elt Ideal) (G6 V c) := by
  have h19 : t.val = 19 := by
    have h1 := (flush0_6 t).mp hf; have h2 := t.isLt; have hN : cfg0.N = 20 := N_0; omega
  show (cfg0.win 6).cut (grid0.coords t) ((dat0 V c).after 6 t) = _
  rw [after0_6, out6_eq_acc V c t]
  funext j
  obtain ⟨z, q, rfl⟩ : ∃ (z : Fin 1) (q : Fin 128), j = ix2 z q := ⟨j 0, j 1, eq_ix2 j⟩
  obtain rfl : z = 0 := Subsingleton.elim _ _
  show (outsAt0 V c t.val t.isLt).2.2.2.2 (ix2 (0 : Fin 1) q) = G6 V c (((cfg0.win 6).blk t).view.emb (ix2 (0 : Fin 1) q))
  rw [accQ V c t.val t.isLt q]
  unfold G6
  obtain ⟨-, -, -, -, -, -, -, -, -, -, -, -, e0, e1⟩ := idx0 t
  have hb : q = (((cfg0.win 6).blk t).view.emb (ix2 (0 : Fin 1) q)) 1 :=
    Fin.ext (by show q.val = win0_6.index t (1 : Fin 2) * 128 + 1 * q.val; omega)
  rw [← hb, h19]

theorem cover0_6_arr (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 20 := N_0
  have hN' : grid0.N = 20 := N_0
  refine ⟨⟨19, by omega⟩, (flush0_6 _).mpr rfl, ?_⟩
  rw [mem_blk0_6]
  obtain ⟨-, -, -, -, -, -, -, -, -, -, -, -, e0, e1⟩ := idx0 ⟨19, by omega⟩
  intro a
  match a with
  | ⟨0, _⟩ => show win0_6.index _ (0 : Fin 2) * 1 ≤ (i 0).val ∧ (i 0).val < win0_6.index _ (0 : Fin 2) * 1 + 1; omega
  | ⟨1, _⟩ => show win0_6.index _ (1 : Fin 2) * 128 ≤ (i 1).val ∧ (i 1).val < win0_6.index _ (1 : Fin 2) * 128 + 128; omega

theorem final0_6 : (dat0 V c).arrAt 6 cfg0.N = G6 V c :=
  (dat0 V c).arrAt_eq_of_cover 6 (G6 V c) (fun t hf => flushed0_6_eq V c t hf) (cover0_6_arr)

end Cert.KernelIdeal.Hand

end
-- ==== Proof.KI1Final.lean ====
/-
  The second kernel's result as one function of its five input arrays.  At each of the twenty points the body
  stores, for its tile of 5000 rows, the rows of the first layer's output through the affine map given by the
  scale and shift rows, clipped below at zero, times the second weight matrix, plus the bias row.  The tile
  window moves down one tile per point and the other four windows hold their whole arrays, so the block each
  point writes back is that point's block of one function of the arrays; the twenty blocks tile the result.
-/
import proofs.«152382_j29643864277575_1_alg».proof.Proof.KI1
import proofs.«152382_j29643864277575_1_alg».proof.Proof.KIPay
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of each window at each of the twenty points: the tile windows (the layer's output and the
    result) move down one tile per point, the four whole-array windows stay at block zero. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The tile window's block at point t is rows 5000·t … 5000·t + 4999 of the layer's output. -/
theorem read_tile (c : Dev nD) (t : Fin cfg1.N) (r : Fin 5000) (k : Fin 128) (n : Fin 100000)
    (hn : n.val = 5000 * t.val + r.val) :
    (iblk1 (F := Ideal) V c 0 t : Vec Ideal S5000x128 .f32) (ix2 r k)
      = (V c main_v15_0 : S100000x128.Idx → EReal) (ix2 n k) := by
  obtain ⟨h0, h1, -⟩ := block_indices t
  unfold iblk1
  rw [View.read_apply]
  show V c main_v15_0 _ = V c main_v15_0 _
  congr 1
  funext a
  apply Fin.ext
  match a with
  | ⟨0, _⟩ => show win1_0.index t (0 : Fin 2) * 5000 + 1 * r.val = n.val; rw [h0, hn]; omega
  | ⟨1, _⟩ => show win1_0.index t (1 : Fin 2) * 128 + 1 * k.val = k.val; rw [h1]; omega

/-- The scale row's window holds the whole row at every point. -/
theorem read_scale (c : Dev nD) (t : Fin cfg1.N) (k : Fin 128) :
    (iblk1 (F := Ideal) V c 1 t : Vec Ideal S1x128 .f32) (ix2 (0 : Fin 1) k)
      = (V c main_v26 : S1x128.Idx → EReal) (ix2 (0 : Fin 1) k) := by
  obtain ⟨-, -, h0, h1, -⟩ := block_indices t
  unfold iblk1
  rw [View.read_apply]
  show V c main_v26 _ = V c main_v26 _
  congr 1
  funext a
  apply Fin.ext
  match a with
  | ⟨0, _⟩ => show win1_1.index t (0 : Fin 2) * 1 + 1 * (0 : Fin 1).val = (0 : Fin 1).val; rw [h0]; rfl
  | ⟨1, _⟩ => show win1_1.index t (1 : Fin 2) * 128 + 1 * k.val = k.val; rw [h1]; omega

/-- The shift row's window holds the whole row at every point. -/
theorem read_shift (c : Dev nD) (t : Fin cfg1.N) (k : Fin 128) :
    (iblk1 (F := Ideal) V c 2 t : Vec Ideal S1x128 .f32) (ix2 (0 : Fin 1) k)
      = (V c main_v29 : S1x128.Idx → EReal) (ix2 (0 : Fin 1) k) := by
  obtain ⟨-, -, -, -, h0, h1, -⟩ := block_indices t
  unfold iblk1
  rw [View.read_apply]
  show V c main_v29 _ = V c main_v29 _
  congr 1
  funext a
  apply Fin.ext
  match a with
  | ⟨0, _⟩ => show win1_2.index t (0 : Fin 2) * 1 + 1 * (0 : Fin 1).val = (0 : Fin 1).val; rw [h0]; rfl
  | ⟨1, _⟩ => show win1_2.index t (1 : Fin 2) * 128 + 1 * k.val = k.val; rw [h1]; omega

/-- The second weight matrix's window holds the whole matrix at every point. -/
theorem read_weights (c : Dev nD) (t : Fin cfg1.N) (k q : Fin 128) :
    (iblk1 (F := Ideal) V c 3 t : Vec Ideal S128x128 .f32) (ix2 k q)
      = (V c main_arg7 : S128x128.Idx → EReal) (ix2 k q) := by
  obtain ⟨-, -, -, -, -, -, h0, h1, -⟩ := block_indices t
  unfold iblk1
  rw [View.read_apply]
  show V c main_arg7 _ = V c main_arg7 _
  congr 1
  funext a
  apply Fin.ext
  match a with
  | ⟨0, _⟩ => show win1_3.index t (0 : Fin 2) * 128 + 1 * k.val = k.val; rw [h0]; omega
  | ⟨1, _⟩ => show win1_3.index t (1 : Fin 2) * 128 + 1 * q.val = q.val; rw [h1]; omega

/-- The bias row's window holds the whole row at every point. -/
theorem read_bias (c : Dev nD) (t : Fin cfg1.N) (q : Fin 128) :
    (iblk1 (F := Ideal) V c 4 t : Vec Ideal S1x128 .f32) (ix2 (0 : Fin 1) q)
      = (V c main_v30 : S1x128.Idx → EReal) (ix2 (0 : Fin 1) q) := by
  obtain ⟨-, -, -, -, -, -, -, -, h0, h1, -⟩ := block_indices t
  unfold iblk1
  rw [View.read_apply]
  show V c main_v30 _ = V c main_v30 _
  congr 1
  funext a
  apply Fin.ext
  match a with
  | ⟨0, _⟩ => show win1_4.index t (0 : Fin 2) * 1 + 1 * (0 : Fin 1).val = (0 : Fin 1).val; rw [h0]; rfl
  | ⟨1, _⟩ => show win1_4.index t (1 : Fin 2) * 128 + 1 * q.val = q.val; rw [h1]; omega

/-- The second layer on the normalised rows, entry by entry: row i 0 of the first table through the affine map
    given by the two rows, clipped below at zero, times the matrix, plus the bias row. -/
def outG (a0 : S100000x128.Idx → EReal) (a1 a2 : S1x128.Idx → EReal) (a3 : S128x128.Idx → EReal)
    (a4 : S1x128.Idx → EReal) : S100000x128.Idx → EReal :=
  fun i => (∑ k : Fin 128, max (a0 (ix2 (i 0) k) * a1 (ix2 (0 : Fin 1) k) + a2 (ix2 (0 : Fin 1) k)) 0
      * a3 (ix2 k (i 1))) + a4 (ix2 (0 : Fin 1) (i 1))

/-- outG at an index given by its coordinates. -/
theorem outG_apply (a0 : S100000x128.Idx → EReal) (a1 a2 : S1x128.Idx → EReal) (a3 : S128x128.Idx → EReal)
    (a4 : S1x128.Idx → EReal) (n : Fin 100000) (q : Fin 128) :
    outG a0 a1 a2 a3 a4 (ix2 n q)
      = (∑ k : Fin 128, max (a0 (ix2 n k) * a1 (ix2 (0 : Fin 1) k) + a2 (ix2 (0 : Fin 1) k)) 0 * a3 (ix2 k q))
        + a4 (ix2 (0 : Fin 1) q) := rfl

/-- One entry of what the body leaves at point t: entry (5000·t + r, q) of outG of the arrays. -/
theorem tile_entry (c : Dev nD) (t : Fin cfg1.N) (r : Fin 5000) (q : Fin 128) (n : Fin 100000)
    (hn : n.val = 5000 * t.val + r.val) :
    k1_pay1 (F := Ideal) (iblk1 V c 0 t) (iblk1 V c 1 t) (iblk1 V c 2 t) (iblk1 V c 3 t) (iblk1 V c 4 t) (ix2 r q)
      = outG (V c main_v15_0) (V c main_v26) (V c main_v29) (V c main_arg7) (V c main_v30) (ix2 n q) := by
  rw [Cert.KernelIdeal.Pay.k1_apply]
  rw [outG_apply]
  refine congrArg₂ (fun a b : EReal => a + b) (Finset.sum_congr rfl fun k _ => ?_) (read_bias V c t q)
  rw [read_tile V c t r k n hn, read_scale V c t k, read_shift V c t k, read_weights V c t k q]

/-- What point t writes back is block t of outG of the arrays as the region finds them. -/
theorem flushed1_5_eq (c : Dev nD) (t : Fin cfg1.N) :
    (dat1 (F := Ideal) V c).flushed 5 t = ((cfg1.win 5).blk t).view.read (Elt Ideal)
      (outG (V c main_v15_0) (V c main_v26) (V c main_v29) (V c main_arg7) (V c main_v30)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets,
    View.ld_unit_zero (S := S128x128) zero_offsets]
  funext j
  obtain ⟨r, q, rfl⟩ : ∃ (r : Fin 5000) (q : Fin 128), j = ix2 r q :=
    ⟨j 0, j 1, eq_ix2 (n0 := 5000) (n1 := 128) j⟩
  have ht : t.val < 20 := lt_of_lt_of_eq t.isLt N_1
  obtain ⟨-, -, -, -, -, -, -, -, -, -, h0, h1⟩ := block_indices t
  have e : ((cfg1.win 5).blk t).view.emb (ix2 r q)
      = (ix2 (⟨5000 * t.val + r.val, by omega⟩ : Fin 100000) q : S100000x128.Idx) := by
    funext a
    apply Fin.ext
    match a with
    | ⟨0, _⟩ => show win1_5.index t (0 : Fin 2) * 5000 + 1 * r.val = 5000 * t.val + r.val; rw [h0]; omega
    | ⟨1, _⟩ => show win1_5.index t (1 : Fin 2) * 128 + 1 * q.val = q.val; rw [h1]; omega
  show k1_pay1 (F := Ideal) (iblk1 V c 0 t) (iblk1 V c 1 t) (iblk1 V c 2 t) (iblk1 V c 3 t) (iblk1 V c 4 t) (ix2 r q)
    = outG (V c main_v15_0) (V c main_v26) (V c main_v29) (V c main_arg7) (V c main_v30)
        (((cfg1.win 5).blk t).view.emb (ix2 r q))
  rw [e]
  exact tile_entry V c t r q _ rfl

/-- An index of the result is in point t's block iff each coordinate lies in the block's range on its axis. -/
theorem mem_block5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- Every index of the result lies in the block of the point its row falls in: row n in tile n / 5000. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, htv⟩ : ∃ t : Fin cfg1.N, t.val = (i 0).val / 5000 :=
    ⟨⟨(i 0).val / 5000, by rw [show cfg1.N = 20 from N_1]; omega⟩, rfl⟩
  obtain ⟨-, -, -, -, -, -, -, -, -, -, h0, h1⟩ := block_indices t
  refine ⟨t, flush1_5 t, ?_⟩
  rw [mem_block5]
  intro a
  match a with
  | ⟨0, _⟩ =>
    show win1_5.index t (0 : Fin 2) * 5000 ≤ (i 0).val ∧ (i 0).val < win1_5.index t (0 : Fin 2) * 5000 + 5000
    rw [h0, htv]; omega
  | ⟨1, _⟩ =>
    show win1_5.index t (1 : Fin 2) * 128 ≤ (i 1).val ∧ (i 1).val < win1_5.index t (1 : Fin 2) * 128 + 128
    rw [h1]; omega

/-- The result array after the twenty points: outG of the arrays as the region finds them. -/
theorem final1_5 (c : Dev nD) :
    (dat1 (F := Ideal) V c).arrAt 5 cfg1.N
      = outG (V c main_v15_0) (V c main_v26) (V c main_v29) (V c main_arg7) (V c main_v30) :=
  (dat1 (F := Ideal) V c).arrAt_eq_of_cover 5
    (outG (V c main_v15_0) (V c main_v26) (V c main_v29) (V c main_arg7) (V c main_v30))
    (fun t _ => flushed1_5_eq V c t) cover5

end Cert.KernelIdeal.Hand
end
-- ==== Proof.KIHost.lean ====
/-
  What the kernel program's two stretches of host operations leave in the buffers the kernels read, as functions
  of an arbitrary valuation `W` of the buffers before the stretch.

  The first stretch normalises the edge indices, gathers the source rows, scatter-adds them into the aggregate, and
  lays the first bias out as a `[1, 128]` row.  The aggregate is the same term as the reference program's aggregate
  of the same two arguments; the bias row at `(0, j)` is the bias at `j`.

  The second stretch turns the row of column sums `S` and the row of column sums of squares `Q` into the
  normalisation's scale and shift rows: `mean = S / N`, `var = Q / N − mean·mean`,
  `scale = γ · rsqrt (var + ε)`, `shift = β − mean · scale`; it lays the second bias out as a row, and writes
  neither the first layer's table nor the second weight matrix.
-/
import proofs.«152382_j29643864277575_1_alg».proof.Proof.Gen.KernelIdeal.Launch
import proofs.«152382_j29643864277575_1_alg».proof.Proof.Gen.KernelIdeal.Regions
import proofs.«152382_j29643864277575_1_alg».proof.Proof.Gen.ReferenceIdeal.Read
import proofs.«152382_j29643864277575_1_alg».proof.Proof.Spec
import Idealize.ShloMosaic.Lib.StableHlo.Run
import Idealize.ShloMosaic.Lib.ValueLayout

noncomputable section

namespace Cert.KernelIdeal.HostVal

open Idealize.ShloMosaic Idealize.ShloMosaic.ValueIdx Cert.KernelIdeal Cert.KernelIdeal.Gen

variable (W : Valuation τ sig (Elt Ideal))

/-! ## The first stretch -/

/-- The aggregate the first stretch writes is the reference program's aggregate of the same features and edges. -/
theorem agg_eq :
    StableHlo.after (hostOps0 (F := Ideal)) W (Proc.devRef .tc main_v13)
      = Cert.ReferenceIdeal.Read.val_main_v13 (F := Ideal) (W (Proc.devRef .tc main_arg0)) (W (Proc.devRef .tc main_arg1)) := by
  after_results
  rfl

/-- The first bias laid out as a row: at `(0, j)` it is the bias at `j`. -/
theorem bias1_eq (j : Fin 128) :
    StableHlo.after (hostOps0 (F := Ideal)) W (Proc.devRef .tc main_v14) (ix2 (0 : Fin 1) j)
      = W (Proc.devRef .tc main_arg4) (ix1 j) := by
  have e : (StableHlo.after (hostOps0 (F := Ideal)) W (Proc.devRef .tc main_v14) : FVec Ideal S1x128 .f32)
      = shapeCast S1x128 (W (Proc.devRef .tc main_arg4) : FVec Ideal S128 .f32) shapeCasts_S128_S1x128 := by
    after_results
    rfl
  exact (congrFun e _).trans (shapeCast_a_1a_apply _ _ 0 j)

/-! ## The second stretch -/

/-- The column mean from the column sum `s`: `s / N`. -/
def meanOf (N s : EReal) : EReal := Ideal.div s N
/-- The column variance from the column sum `s` and the column sum of squares `q`: `q / N − mean·mean`. -/
def varOf (N s q : EReal) : EReal := Ideal.div q N - meanOf N s * meanOf N s
/-- The scale: `γ · rsqrt (var + ε)`. -/
def scaleOf (N ε s q g : EReal) : EReal := g * Ideal.rsqrt (varOf N s q + ε)
/-- The shift: `β − mean · scale`. -/
def shiftOf (N ε s q g b : EReal) : EReal := b - meanOf N s * scaleOf N ε s q g

/-- With the running sums of the twenty tiles as the column sums, the scale is the tiled form's scale. -/
theorem scaleOf_runSum (h : Fin 100000 → Fin 128 → EReal) (N ε : EReal) (γ : Fin 128 → EReal) (j : Fin 128) :
    scaleOf N ε (Cert.Bridge.runSum h j 20) (Cert.Bridge.runSum (fun n j => h n j * h n j) j 20) (γ j)
      = Cert.Bridge.tScale h N ε γ j := rfl

/-- With the running sums of the twenty tiles as the column sums, the shift is the tiled form's shift. -/
theorem shiftOf_runSum (h : Fin 100000 → Fin 128 → EReal) (N ε : EReal) (γ β : Fin 128 → EReal) (j : Fin 128) :
    shiftOf N ε (Cert.Bridge.runSum h j 20) (Cert.Bridge.runSum (fun n j => h n j * h n j) j 20) (γ j) (β j)
      = Cert.Bridge.tShift h N ε γ β j := rfl

section Rows

variable (s q : FVec Ideal S1x128 .f32) (g b : FVec Ideal S128 .f32)

/-- The row count, broadcast to a row. -/
abbrev nRow : FVec Ideal S1x128 .f32 :=
  broadcastInDim S1x128 ![] bcast_S_S1x128 (constant (F := Ideal) S_ .f32 0x47C35000#32)
/-- The variance offset, broadcast to a row. -/
abbrev epsRow : FVec Ideal S1x128 .f32 :=
  broadcastInDim S1x128 ![] bcast_S_S1x128 (constant (F := Ideal) S_ .f32 0x3727C5AC#32)
/-- The row of column means, from the row of column sums. -/
abbrev meanRow : FVec Ideal S1x128 .f32 := Host.divf (F := Ideal) s nRow
/-- The row of column variances: the mean of squares minus the square of the mean. -/
abbrev varRow : FVec Ideal S1x128 .f32 :=
  subf (F := Ideal) (Host.divf (F := Ideal) q nRow) (mulf (F := Ideal) (meanRow s) (meanRow s))
/-- The scale row. -/
abbrev scaleRow : FVec Ideal S1x128 .f32 :=
  mulf (F := Ideal) (shapeCast S1x128 g shapeCasts_S128_S1x128)
    (Host.rsqrt (F := Ideal) (addf (F := Ideal) (varRow s q) epsRow))
/-- The shift row. -/
abbrev shiftRow : FVec Ideal S1x128 .f32 :=
  subf (F := Ideal) (shapeCast S1x128 b shapeCasts_S128_S1x128) (mulf (F := Ideal) (meanRow s) (scaleRow s q g))

/-- The scale row read at `(0, j)`. -/
theorem scaleRow_apply (j : Fin 128) :
    scaleRow s q g (ix2 (0 : Fin 1) j)
      = scaleOf (Ideal.ofBits .f32 0x47C35000#32) (Ideal.ofBits .f32 0x3727C5AC#32)
          (s (ix2 (0 : Fin 1) j)) (q (ix2 (0 : Fin 1) j)) (g (ix1 j)) := by
  show shapeCast S1x128 g shapeCasts_S128_S1x128 (ix2 (0 : Fin 1) j) * _ = _
  rw [shapeCast_a_1a_apply]
  rfl

/-- The shift row read at `(0, j)`. -/
theorem shiftRow_apply (j : Fin 128) :
    shiftRow s q g b (ix2 (0 : Fin 1) j)
      = shiftOf (Ideal.ofBits .f32 0x47C35000#32) (Ideal.ofBits .f32 0x3727C5AC#32)
          (s (ix2 (0 : Fin 1) j)) (q (ix2 (0 : Fin 1) j)) (g (ix1 j)) (b (ix1 j)) := by
  show shapeCast S1x128 b shapeCasts_S128_S1x128 (ix2 (0 : Fin 1) j)
      - meanRow s (ix2 (0 : Fin 1) j) * (shapeCast S1x128 g shapeCasts_S128_S1x128 (ix2 (0 : Fin 1) j) * _) = _
  rw [shapeCast_a_1a_apply, shapeCast_a_1a_apply]
  rfl

end Rows

/-- The scale row at `(0, j)`: `γ · rsqrt (var + ε)` with `mean = S / N`, `var = Q / N − mean·mean`. -/
theorem scale_eq (j : Fin 128) :
    StableHlo.after (hostOps1 (F := Ideal)) W (Proc.devRef .tc main_v26) (ix2 (0 : Fin 1) j)
      = scaleOf (Ideal.ofBits .f32 0x47C35000#32) (Ideal.ofBits .f32 0x3727C5AC#32) (W (Proc.devRef .tc main_v15_1) (ix2 (0 : Fin 1) j)) (W (Proc.devRef .tc main_v15_2) (ix2 (0 : Fin 1) j)) (W (Proc.devRef .tc main_arg5) (ix1 j)) := by
  have e : (StableHlo.after (hostOps1 (F := Ideal)) W (Proc.devRef .tc main_v26) : FVec Ideal S1x128 .f32)
      = scaleRow (W (Proc.devRef .tc main_v15_1)) (W (Proc.devRef .tc main_v15_2)) (W (Proc.devRef .tc main_arg5)) := by
    after_results_simp
    rfl
  exact (congrFun e _).trans (scaleRow_apply _ _ _ j)

/-- The shift row at `(0, j)`: `β − mean · scale`. -/
theorem shift_eq (j : Fin 128) :
    StableHlo.after (hostOps1 (F := Ideal)) W (Proc.devRef .tc main_v29) (ix2 (0 : Fin 1) j)
      = shiftOf (Ideal.ofBits .f32 0x47C35000#32) (Ideal.ofBits .f32 0x3727C5AC#32) (W (Proc.devRef .tc main_v15_1) (ix2 (0 : Fin 1) j)) (W (Proc.devRef .tc main_v15_2) (ix2 (0 : Fin 1) j)) (W (Proc.devRef .tc main_arg5) (ix1 j)) (W (Proc.devRef .tc main_arg6) (ix1 j)) := by
  have e : (StableHlo.after (hostOps1 (F := Ideal)) W (Proc.devRef .tc main_v29) : FVec Ideal S1x128 .f32)
      = shiftRow (W (Proc.devRef .tc main_v15_1)) (W (Proc.devRef .tc main_v15_2)) (W (Proc.devRef .tc main_arg5)) (W (Proc.devRef .tc main_arg6)) := by
    after_results_simp
    rfl
  exact (congrFun e _).trans (shiftRow_apply _ _ _ _ j)

/-- The second bias laid out as a row: at `(0, j)` it is the bias at `j`. -/
theorem bias2_eq (j : Fin 128) :
    StableHlo.after (hostOps1 (F := Ideal)) W (Proc.devRef .tc main_v30) (ix2 (0 : Fin 1) j)
      = W (Proc.devRef .tc main_arg8) (ix1 j) := by
  have e : (StableHlo.after (hostOps1 (F := Ideal)) W (Proc.devRef .tc main_v30) : FVec Ideal S1x128 .f32)
      = shapeCast S1x128 (W (Proc.devRef .tc main_arg8) : FVec Ideal S128 .f32) shapeCasts_S128_S1x128 := by
    after_results
    rfl
  exact (congrFun e _).trans (shapeCast_a_1a_apply _ _ 0 j)

/-- The second stretch does not write the first layer's table. -/
theorem h_kept :
    StableHlo.after (hostOps1 (F := Ideal)) W (Proc.devRef .tc main_v15_0) = W (Proc.devRef .tc main_v15_0) :=
  StableHlo.after_of_writes_sub hostOps1 W hostOps1_writes (by decide)

/-- The second stretch does not write the second weight matrix. -/
theorem w2_kept :
    StableHlo.after (hostOps1 (F := Ideal)) W (Proc.devRef .tc main_arg7) = W (Proc.devRef .tc main_arg7) :=
  StableHlo.after_of_writes_sub hostOps1 W hostOps1_writes (by decide)

end Cert.KernelIdeal.HostVal

end
-- ==== Proof.KIValue.lean ====
/-
  The kernel program's result, index by index, in the tiled form of the shared mathematics.

  Host operations first build the aggregate and the bias row; the statistics kernel then leaves the first dense layer
  `h` of the whole table and the running column sums of `h` and `h²` over the twenty tiles; host operations turn the
  two rows of sums into the scale and shift rows; the second kernel writes, tile by tile,
  `max (h·scale + shift) 0 · W2 + b2`.  Read at row `n`, column `j`, that is the tiled form's result.
-/
import proofs.«152382_j29643864277575_1_alg».proof.Proof.KIRun
import proofs.«152382_j29643864277575_1_alg».proof.Proof.KI0Final
import proofs.«152382_j29643864277575_1_alg».proof.Proof.KI1Final
import proofs.«152382_j29643864277575_1_alg».proof.Proof.KIHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Bridge Cert.KernelIdeal.HostVal

variable (m : (ℓ : Loc nD τ sig) → Buf (Elt Ideal) ℓ) (ρ : Dev nD → PrngReg) (c : Dev nD)

/-- The row count and the variance offset, as the two programs spell them. -/
abbrev cN : EReal := Ideal.ofBits .f32 0x47C35000#32
abbrev cEps : EReal := Ideal.ofBits .f32 0x3727C5AC#32

/-- The first dense layer of the whole table, from the launch contents of the arguments. -/
def hM : Fin 100000 → Fin 128 → EReal :=
  dense1 (fun n k => m ((c : Thread nD τ).loc main_arg0) (ix2 n k))
    (fun n k => Cert.ReferenceIdeal.Read.val_main_v13 (F := Ideal) (m ((c : Thread nD τ).loc main_arg0)) (m ((c : Thread nD τ).loc main_arg1)) (ix2 n k))
    (fun k j => m ((c : Thread nD τ).loc main_arg3) (ix2 k j)) (fun j => m ((c : Thread nD τ).loc main_arg4) (ix1 j))

/-! ## What the statistics kernel finds -/

theorem vi0_arg0 : Vi0 m ρ c main_arg0 = m ((c : Thread nD τ).loc main_arg0) :=
  (StableHlo.after_of_writes_sub hostOps0 _ hostOps0_writes (by decide : main_arg0 ∉ hostOps0_W)).trans rfl
theorem vi0_arg3 : Vi0 m ρ c main_arg3 = m ((c : Thread nD τ).loc main_arg3) :=
  (StableHlo.after_of_writes_sub hostOps0 _ hostOps0_writes (by decide : main_arg3 ∉ hostOps0_W)).trans rfl
theorem vi0_v13 : Vi0 m ρ c main_v13
    = Cert.ReferenceIdeal.Read.val_main_v13 (F := Ideal) (m ((c : Thread nD τ).loc main_arg0)) (m ((c : Thread nD τ).loc main_arg1)) :=
  agg_eq (W0 m ρ c)
theorem vi0_v14 (j : Fin 128) : Vi0 m ρ c main_v14 (ix2 (0 : Fin 1) j) = m ((c : Thread nD τ).loc main_arg4) (ix1 j) :=
  bias1_eq (W0 m ρ c) j

theorem hV_eq : hV (Vi0 m ρ) c = hM m c := by
  funext n j
  unfold hV hM dense1
  beta_reduce
  rw [vi0_v14, vi0_arg0, vi0_arg3, vi0_v13]

/-! ## What the statistics kernel leaves -/

theorem w2_h : W2 m ρ c (Proc.devRef .tc main_v15_0) = G4 (Vi0 m ρ) c :=
  (W2_arr m ρ c 4).trans (final0_4 (Vi0 m ρ) c)
theorem w2_S : W2 m ρ c (Proc.devRef .tc main_v15_1) = G5 (Vi0 m ρ) c :=
  (W2_arr m ρ c 5).trans (final0_5 (Vi0 m ρ) c)
theorem w2_Q : W2 m ρ c (Proc.devRef .tc main_v15_2) = G6 (Vi0 m ρ) c :=
  (W2_arr m ρ c 6).trans (final0_6 (Vi0 m ρ) c)
theorem w2_arg5 : W2 m ρ c (Proc.devRef .tc main_arg5) = m ((c : Thread nD τ).loc main_arg5) :=
  (W2_of_ne m ρ c main_arg5 (by decide)).trans
    ((StableHlo.after_of_writes_sub hostOps0 _ hostOps0_writes (by decide : main_arg5 ∉ hostOps0_W)).trans rfl)
theorem w2_arg6 : W2 m ρ c (Proc.devRef .tc main_arg6) = m ((c : Thread nD τ).loc main_arg6) :=
  (W2_of_ne m ρ c main_arg6 (by decide)).trans
    ((StableHlo.after_of_writes_sub hostOps0 _ hostOps0_writes (by decide : main_arg6 ∉ hostOps0_W)).trans rfl)
theorem w2_arg7 : W2 m ρ c (Proc.devRef .tc main_arg7) = m ((c : Thread nD τ).loc main_arg7) :=
  (W2_of_ne m ρ c main_arg7 (by decide)).trans
    ((StableHlo.after_of_writes_sub hostOps0 _ hostOps0_writes (by decide : main_arg7 ∉ hostOps0_W)).trans rfl)
theorem w2_arg8 : W2 m ρ c (Proc.devRef .tc main_arg8) = m ((c : Thread nD τ).loc main_arg8) :=
  (W2_of_ne m ρ c main_arg8 (by decide)).trans
    ((StableHlo.after_of_writes_sub hostOps0 _ hostOps0_writes (by decide : main_arg8 ∉ hostOps0_W)).trans rfl)

/-! ## What the second kernel finds -/

theorem vi1_h : Vi1 m ρ c main_v15_0 = G4 (Vi0 m ρ) c := (h_kept (W2 m ρ c)).trans (w2_h m ρ c)
theorem vi1_w2 : Vi1 m ρ c main_arg7 = m ((c : Thread nD τ).loc main_arg7) := (w2_kept (W2 m ρ c)).trans (w2_arg7 m ρ c)

theorem vi1_scale (j : Fin 128) : Vi1 m ρ c main_v26 (ix2 (0 : Fin 1) j)
    = tScale (hM m c) cN cEps (fun j => m ((c : Thread nD τ).loc main_arg5) (ix1 j)) j := by
  refine (scale_eq (W2 m ρ c) j).trans ?_
  rw [w2_S, w2_Q, w2_arg5]
  unfold G5 G6
  rw [hV_eq]
  exact scaleOf_runSum (hM m c) cN cEps (fun j => m ((c : Thread nD τ).loc main_arg5) (ix1 j)) j

theorem vi1_shift (j : Fin 128) : Vi1 m ρ c main_v29 (ix2 (0 : Fin 1) j)
    = tShift (hM m c) cN cEps (fun j => m ((c : Thread nD τ).loc main_arg5) (ix1 j)) (fun j => m ((c : Thread nD τ).loc main_arg6) (ix1 j)) j := by
  refine (shift_eq (W2 m ρ c) j).trans ?_
  rw [w2_S, w2_Q, w2_arg5, w2_arg6]
  unfold G5 G6
  rw [hV_eq]
  exact shiftOf_runSum (hM m c) cN cEps (fun j => m ((c : Thread nD τ).loc main_arg5) (ix1 j)) (fun j => m ((c : Thread nD τ).loc main_arg6) (ix1 j)) j

theorem vi1_b2 (j : Fin 128) : Vi1 m ρ c main_v30 (ix2 (0 : Fin 1) j) = m ((c : Thread nD τ).loc main_arg8) (ix1 j) := by
  refine (bias2_eq (W2 m ρ c) j).trans ?_
  rw [w2_arg8]

/-! ## The result -/

/-- The kernel program's result array, read at row `n`, column `q`, is the tiled form's result. -/
theorem kernel_out (n : Fin 100000) (q : Fin 128) :
    W4 m ρ c (Proc.devRef .tc main_v31) (ix2 n q)
      = tOut (hM m c) cN cEps (fun j => m ((c : Thread nD τ).loc main_arg5) (ix1 j)) (fun j => m ((c : Thread nD τ).loc main_arg6) (ix1 j))
          (fun k j => m ((c : Thread nD τ).loc main_arg7) (ix2 k j)) (fun j => m ((c : Thread nD τ).loc main_arg8) (ix1 j)) n q := by
  rw [show W4 m ρ c (Proc.devRef .tc main_v31) = (dat1 (Vi1 m ρ) c).arrAt 5 cfg1.N from W4_arr m ρ c 5, final1_5, outG_apply]
  unfold tOut
  beta_reduce
  rw [vi1_b2]
  refine congrArg (· + _) (Finset.sum_congr rfl fun k _ => ?_)
  rw [vi1_h, vi1_w2, vi1_scale, vi1_shift]
  unfold G4
  rw [hV_eq]

end Cert.KernelIdeal.Hand

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.LibRegroup.lean ====
/-
  Regrouping a long sum.  A flat array of a·b·n·d numbers is cut into a·b blocks of n rows of d lanes.  The
  kernel adds, for each of the a halves and each lane, the b blocks of that half and the n rows of each block;
  the reference adds the a·b·n·d numbers in one sweep.  In a commutative additive monoid the two totals agree:
  three applications of "a sum of block sums is the whole sum" and two exchanges of the order of summation.
-/
import proofs.«152382_j29643864277575_1_alg».proof.Proof.LibBlockSum

namespace Cert.Regroup

open Cert.LibBlockSum

/-- The sum of `a` block sums of `b` consecutive terms, with the blocks indexed by `Fin a`. -/
theorem sum_blocks_fin {M : Type*} [AddCommMonoid M] (a b : ℕ) (g : ℕ → M) :
    ∑ t : Fin a, ∑ r : Fin b, g (b * t.val + r.val) = ∑ q : Fin (a * b), g q.val :=
  (Fin.sum_univ_eq_sum_range (fun t => ∑ r : Fin b, g (b * t + r.val)) a).trans (sum_blocks a b g)

/-- Halves, lanes, blocks of a half, rows of a block: position `d·(n·(b·c + i) + r) + l` runs once through
    all `a·b·n·d` positions. -/
theorem regroup4 {M : Type*} [AddCommMonoid M] (a b n d : ℕ) (g : ℕ → M) :
    ∑ c : Fin a, ∑ l : Fin d, ∑ i : Fin b, ∑ r : Fin n, g (d * (n * (b * c.val + i.val) + r.val) + l.val)
      = ∑ q : Fin (a * b * n * d), g q.val := by
  rw [← sum_blocks_fin (a * b * n) d g,
    ← sum_blocks_fin (a * b) n (fun R => ∑ l : Fin d, g (d * R + l.val)),
    ← sum_blocks_fin a b (fun B => ∑ r : Fin n, ∑ l : Fin d, g (d * (n * B + r.val) + l.val))]
  refine Finset.sum_congr rfl fun c _ => ?_
  rw [Finset.sum_comm]
  refine Finset.sum_congr rfl fun i _ => ?_
  exact Finset.sum_comm

end Cert.Regroup
-- ==== Proof.Algebra.lean ====
/-
  The algebra behind the agreement of the two spellings of the normalised layer.

  * A first dense layer applied to real tables is a real table.
  * Twenty running tile sums of 5000 rows add up to the whole column sum (a sum of block sums is the
    whole sum; no finiteness is needed for that).
  * On a real table the mean is real, and the two variances agree:
    (1/N)·∑(a − μ)² = (1/N)·∑a² − μ²  for  μ = (1/N)·∑a.
  * The variance is a mean of squares, so it is nonnegative; with a positive ε the reciprocal square
    root of var + ε is the real number (√(var + ε))⁻¹.
  * With every quantity real, h·(γ·r) + (β − μ·(γ·r)) = (h − μ)·r·γ + β is a polynomial identity.
  The second layer's weights and bias enter both sides in the same way and need no hypothesis.
-/
import proofs.«152382_j29643864277575_1_alg».proof.Proof.Spec
import proofs.«152382_j29643864277575_1_alg».proof.Proof.LibSumSwap
import proofs.«152382_j29643864277575_1_alg».proof.Proof.LibRegroup

noncomputable section

namespace Cert.Bridge

open Idealize.ShloMosaic

/-! ### The first dense layer keeps tables real -/

theorem dense1_isReal {x agg : Fin 100000 → Fin 64 → EReal} {W1 : Fin 64 → Fin 128 → EReal} {b1 : Fin 128 → EReal}
    (hx : IsReal x) (ha : IsReal agg) (hW : IsReal W1) (hb : IsReal₁ b1) : IsReal (dense1 x agg W1 b1) := by
  intro n j
  choose xr hxr using hx
  choose ar har using ha
  choose wr hwr using hW
  choose br hbr using hb
  refine ⟨(∑ k : Fin 64, (xr n k + ar n k) * wr k j) + br j, ?_⟩
  unfold dense1
  simp only [hxr, har, hwr, hbr]
  rw [EReal.coe_add, SumSwap.coe_sum]
  simp only [EReal.coe_mul, EReal.coe_add]

/-! ### Twenty tile sums are the whole column sum -/

/-- One column of a table read along the natural numbers (zero past the last row). -/
def flatCol (g : Fin 100000 → Fin 128 → EReal) (j : Fin 128) (q : ℕ) : EReal :=
  if hq : q < 100000 then g ⟨q, hq⟩ j else 0

theorem tileSum_eq_flat (g : Fin 100000 → Fin 128 → EReal) (t : Fin 20) (j : Fin 128) :
    tileSum g t j = ∑ r : Fin 5000, flatCol g j (5000 * t.val + r.val) := by
  unfold tileSum
  refine Finset.sum_congr rfl fun r _ => ?_
  have hlt : 5000 * t.val + r.val < 100000 := by have := t.isLt; have := r.isLt; omega
  rw [flatCol, dif_pos hlt]
  rfl

/-- After at most twenty steps the running sum is the sum of the tile sums taken so far. -/
theorem runSum_eq_range (g : Fin 100000 → Fin 128 → EReal) (j : Fin 128) :
    ∀ t : ℕ, t ≤ 20 → runSum g j t = ∑ i ∈ Finset.range t, ∑ r : Fin 5000, flatCol g j (5000 * i + r.val)
  | 0, _ => by simp [runSum]
  | t + 1, ht => by
      have ht' : t < 20 := by omega
      rw [runSum, runSum_eq_range g j t (by omega), dif_pos ht', Finset.sum_range_succ, tileSum_eq_flat]

/-- The running sum after all twenty tiles is the sum of the whole column. -/
theorem runSum_total (g : Fin 100000 → Fin 128 → EReal) (j : Fin 128) :
    runSum g j 20 = ∑ n : Fin 100000, g n j := by
  rw [runSum_eq_range g j 20 le_rfl, Cert.LibBlockSum.sum_blocks 20 5000 (flatCol g j)]
  show ∑ q : Fin 100000, flatCol g j q.val = _
  refine Finset.sum_congr rfl fun q _ => ?_
  rw [flatCol, dif_pos q.isLt]

theorem tMean_eq_wMean (h : Fin 100000 → Fin 128 → EReal) (N : EReal) (j : Fin 128) :
    tMean h N j = wMean h N j := by
  unfold tMean wMean
  rw [runSum_total]

/-! ### Real identities -/

/-- The mean of the squared deviations from the mean is the mean of the squares minus the squared mean. -/
theorem real_var_identity {ι : Type*} (s : Finset ι) (a : ι → ℝ) (c : ℝ) (hc : (s.card : ℝ) = c) (hc0 : c ≠ 0) :
    (∑ i ∈ s, (a i - (∑ i ∈ s, a i) * (1 / c)) * (a i - (∑ i ∈ s, a i) * (1 / c))) * (1 / c)
      = (∑ i ∈ s, a i * a i) * (1 / c) - ((∑ i ∈ s, a i) * (1 / c)) * ((∑ i ∈ s, a i) * (1 / c)) := by
  set S : ℝ := ∑ i ∈ s, a i with hS
  set μ : ℝ := S * (1 / c) with hμ
  have hexp : ∀ i, (a i - μ) * (a i - μ) = a i * a i - 2 * μ * a i + μ * μ := fun i => by ring
  have hsum : ∑ i ∈ s, (a i - μ) * (a i - μ) = (∑ i ∈ s, a i * a i) - 2 * μ * S + c * (μ * μ) := by
    simp only [hexp]
    rw [Finset.sum_add_distrib, Finset.sum_sub_distrib, ← Finset.mul_sum, Finset.sum_const, nsmul_eq_mul, hc]
  rw [hsum, hμ]
  field_simp
  ring

/-- A mean of squares is nonnegative. -/
theorem real_var_nonneg {ι : Type*} (s : Finset ι) (a : ι → ℝ) (m c : ℝ) (hc : 0 < c) :
    0 ≤ (∑ i ∈ s, (a i - m) * (a i - m)) * (1 / c) :=
  mul_nonneg (Finset.sum_nonneg fun i _ => mul_self_nonneg _) (by positivity)

/-- The reciprocal square root of a positive real v is the real number (√v)⁻¹. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-! ### The statistics of a real table -/

section RealTable

variable (hr : Fin 100000 → Fin 128 → ℝ)

/-- The real column mean. -/
def rMean (j : Fin 128) : ℝ := (∑ n : Fin 100000, hr n j) * (1 / (100000 : ℝ))
/-- The real column variance, as the mean of the squared deviations. -/
def rVar (j : Fin 128) : ℝ :=
  (∑ n : Fin 100000, (hr n j - rMean hr j) * (hr n j - rMean hr j)) * (1 / (100000 : ℝ))

theorem rVar_nonneg (j : Fin 128) : 0 ≤ rVar hr j :=
  real_var_nonneg Finset.univ (fun n => hr n j) (rMean hr j) 100000 (by norm_num)

theorem rVar_eq (j : Fin 128) :
    rVar hr j = (∑ n : Fin 100000, hr n j * hr n j) * (1 / (100000 : ℝ)) - rMean hr j * rMean hr j := by
  unfold rVar rMean
  exact real_var_identity Finset.univ (fun n => hr n j) 100000 (by simp) (by norm_num)

variable {hr}
variable {h : Fin 100000 → Fin 128 → EReal} (hh : ∀ n j, h n j = (hr n j : EReal))
include hh

theorem wMean_real (j : Fin 128) : wMean h ((100000 : ℝ) : EReal) j = (rMean hr j : EReal) := by
  unfold wMean rMean
  rw [Ideal.div_coe (by norm_num)]
  simp only [hh]
  rw [← SumSwap.coe_sum, ← EReal.coe_mul]

theorem wVar_real (j : Fin 128) : wVar h ((100000 : ℝ) : EReal) j = (rVar hr j : EReal) := by
  unfold wVar
  rw [Ideal.div_coe (by norm_num)]
  simp only [wMean_real hh, hh, ← EReal.coe_sub, ← EReal.coe_mul]
  rw [← SumSwap.coe_sum, ← EReal.coe_mul]
  rfl

theorem tVar_real (j : Fin 128) : tVar h ((100000 : ℝ) : EReal) j = (rVar hr j : EReal) := by
  unfold tVar
  rw [tMean_eq_wMean, wMean_real hh, runSum_total, Ideal.div_coe (by norm_num), rVar_eq]
  simp only [hh, ← EReal.coe_mul]
  rw [← SumSwap.coe_sum, ← EReal.coe_mul, ← EReal.coe_sub]

end RealTable

/-! ### The two results agree -/

theorem tOut_eq_wOut (h : Fin 100000 → Fin 128 → EReal) (hh : IsReal h) (N ε : EReal)
    (hN : N = ((100000 : ℝ) : EReal)) (e : ℝ) (he : 0 < e) (hε : ε = (e : EReal))
    (γ β : Fin 128 → EReal) (hγ : IsReal₁ γ) (hβ : IsReal₁ β)
    (W2 : Fin 128 → Fin 128 → EReal) (b2 : Fin 128 → EReal) (n : Fin 100000) (j : Fin 128) :
    tOut h N ε γ β W2 b2 n j = wOut h N ε γ β W2 b2 n j := by
  subst hN hε
  choose hr hhr using hh
  choose γr hγr using hγ
  choose βr hβr using hβ
  unfold tOut wOut
  congr 1
  refine Finset.sum_congr rfl fun k _ => ?_
  congr 2
  have hpos : 0 < rVar hr k + e := add_pos_of_nonneg_of_pos (rVar_nonneg hr k) he
  unfold tShift tScale
  rw [tMean_eq_wMean, wMean_real hhr, tVar_real hhr, wVar_real hhr, ← EReal.coe_add, rsqrt_coe_pos hpos,
    hhr, hγr, hβr]
  simp only [← EReal.coe_mul, ← EReal.coe_sub, ← EReal.coe_add]
  congr 1
  ring

end Cert.Bridge

end
-- ==== Proof.RefValue.lean ====
/-
  The reference program's result, read at row `n` and column `j`, is the whole-column form `wOut` of the
  specification, over the first dense layer's table `dense1` of the node features, the aggregated features,
  the first weight matrix and the first bias.

  The stages, innermost first: the column mean is the whole column's sum (started from the zero word) divided
  by the row count; the column variance is the mean of the squared centred entries; the normalised entry is
  `(h − μ)·rsqrt(var + ε)·γ + β`; the result is the rectified normalised row times the second weight matrix,
  plus the second bias.  Each stage is stated over an abstract table `h` that the first layer's output reads as,
  and the first layer is identified with `dense1` last.
-/
import proofs.«152382_j29643864277575_1_alg».proof.Proof.Spec
import proofs.«152382_j29643864277575_1_alg».proof.Proof.Gen.ReferenceIdeal.Read

noncomputable section

namespace Cert.RefValue

open Idealize.ShloMosaic Idealize.ShloMosaic.ValueIdx Cert.ReferenceIdeal Cert.ReferenceIdeal.Read Cert.Bridge

section Stages

variable (x0 : FVec Ideal S100000x64 .f32) (x1 : (⟨S2x1600000, .i32⟩ : BufTy).Contents (Elt Ideal))
  (x3 : FVec Ideal S64x128 .f32) (x4 x5 x6 : FVec Ideal S128 .f32) (x7 : FVec Ideal S128x128 .f32) (x8 : FVec Ideal S128 .f32)
  (h : Fin 100000 → Fin 128 → EReal)
  (hh : ∀ (n : Fin 100000) (j : Fin 128), val_main_v18 (F := Ideal) x0 x1 x3 x4 (ix2 n j) = h n j)

/-- The row count as the program spells it. -/
local notation "cN" => Ideal.ofBits FTy.f32 0x47C35000#32
/-- The variance offset as the program spells it. -/
local notation "cE" => Ideal.ofBits FTy.f32 0x3727C5AC#32

include hh in
/-- The column mean: the whole column's sum, started from zero, over the row count. -/
theorem mean_eq (j : Fin 128) :
    val_main_v21 (F := Ideal) x0 x1 x3 x4 (ix1 j) = wMean h cN j := by
  rw [val_main_v21_apply, val_main_v19_apply, val_main_v20_apply, val_main_cst_2_apply, val_main_cst_1_apply]
  have e : ∀ m : Fin 100000, idx_main_v19 (ix1 j) m = ix2 m j := fun m => funext fun a => Fin.ext (by match a with | ⟨0, _⟩ => rfl | ⟨1, _⟩ => rfl)
  simp only [e, hh, Ideal.hostDivf_def, Ideal.ofBits_def, Ideal.ofBits_zero_f32, zero_add]
  rfl

include hh in
/-- The column variance: the mean of the squares of the centred entries. -/
theorem var_eq (j : Fin 128) :
    val_main_v28 (F := Ideal) x0 x1 x3 x4 (ix1 j) = wVar h cN j := by
  rw [val_main_v28_apply, val_main_v26_apply, val_main_v27_apply, val_main_cst_4_apply, val_main_cst_3_apply]
  have e : ∀ m : Fin 100000, idx_main_v26 (ix1 j) m = ix2 m j := fun m => funext fun a => Fin.ext (by match a with | ⟨0, _⟩ => rfl | ⟨1, _⟩ => rfl)
  have e2 : ∀ m : Fin 100000, idx_main_v22 (idx_main_v23 (ix2 m j)) = ix1 j := fun m => funext fun a => Fin.ext (by match a with | ⟨0, _⟩ => rfl)
  simp only [e, val_main_v25_apply, val_main_v24_apply, val_main_v23_apply, val_main_v22_apply, e2,
    mean_eq x0 x1 x3 x4 h hh, hh, Ideal.hostDivf_def, Ideal.subf_def, Ideal.mulf_def, Ideal.ofBits_def,
    Ideal.ofBits_zero_f32, zero_add]
  rfl

include hh in
/-- The normalised entry: centre, scale by the reciprocal root of the offset variance, then by γ, and shift by β. -/
theorem norm_eq (n : Fin 100000) (k : Fin 128) :
    val_main_v43 (F := Ideal) x0 x1 x3 x4 x5 x6 (ix2 n k)
      = (h n k - wMean h cN k) * Ideal.rsqrt (wVar h cN k + cE) * x5 (ix1 k) + x6 (ix1 k) := by
  rw [val_main_v43_apply, val_main_v40_apply, val_main_v37_apply, val_main_v31_apply, val_main_v30_apply,
    val_main_v29_apply, val_main_v36_apply, val_main_v35_apply, val_main_v34_apply, val_main_v33_apply,
    val_main_v32_apply, val_main_cst_5_apply, val_main_v39_apply, val_main_v38_apply, val_main_v42_apply,
    val_main_v41_apply]
  have e29 : idx_main_v29 (idx_main_v30 (ix2 n k)) = ix1 k := funext fun a => Fin.ext (by match a with | ⟨0, _⟩ => rfl)
  have e35 : idx_main_v35 (idx_main_v36 (ix2 n k)) = ix1 k := funext fun a => Fin.ext (by match a with | ⟨0, _⟩ => rfl)
  have e38 : idx_main_v38 (idx_main_v39 (ix2 n k)) = ix1 k := funext fun a => Fin.ext (by match a with | ⟨0, _⟩ => rfl)
  have e41 : idx_main_v41 (idx_main_v42 (ix2 n k)) = ix1 k := funext fun a => Fin.ext (by match a with | ⟨0, _⟩ => rfl)
  rw [e29, e35, e38, e41, mean_eq x0 x1 x3 x4 h hh, var_eq x0 x1 x3 x4 h hh, hh]
  rfl

include hh in
/-- The result: the rectified normalised row times the second weight matrix, plus the second bias. -/
theorem out_eq (n : Fin 100000) (j : Fin 128) :
    val_main_v48 (F := Ideal) x0 x1 x3 x4 x5 x6 x7 x8 (ix2 n j)
      = wOut h cN cE (fun j => x5 (ix1 j)) (fun j => x6 (ix1 j)) (fun k j => x7 (ix2 k j)) (fun j => x8 (ix1 j)) n j := by
  rw [val_main_v48_apply, val_main_v45_apply, val_main_v47_apply, val_main_v46_apply]
  have el : ∀ k : Fin 128, lidx_main_v45 (ix2 n j) k = ix2 n k := fun k => funext fun a => Fin.ext (by match a with | ⟨0, _⟩ => rfl | ⟨1, _⟩ => rfl)
  have er : ∀ k : Fin 128, ridx_main_v45 (ix2 n j) k = ix2 k j := fun k => funext fun a => Fin.ext (by match a with | ⟨0, _⟩ => rfl | ⟨1, _⟩ => rfl)
  have e46 : idx_main_v46 (idx_main_v47 (ix2 n j)) = ix1 j := funext fun a => Fin.ext (by match a with | ⟨0, _⟩ => rfl)
  simp only [el, er, e46, val_main_v44_apply, val_main_call0_v0_apply, val_main_call0_cst_apply,
    norm_eq x0 x1 x3 x4 x5 x6 h hh, Ideal.maximumf_def, Ideal.addf_def, Ideal.ofBits_def, Ideal.ofBits_zero_f32]
  rfl

end Stages

open Idealize.ShloMosaic Idealize.ShloMosaic.ValueIdx Cert.ReferenceIdeal in
/-- The first dense layer: the features plus their aggregate, times the first weight matrix, plus the first bias. -/
theorem h_eq (x0 : FVec Ideal S100000x64 .f32) (x1 : (⟨S2x1600000, .i32⟩ : BufTy).Contents (Elt Ideal))
    (x3 : FVec Ideal S64x128 .f32) (x4 : FVec Ideal S128 .f32) (n : Fin 100000) (j : Fin 128) :
    Cert.ReferenceIdeal.Read.val_main_v18 (F := Ideal) x0 x1 x3 x4 (ix2 n j)
      = Cert.Bridge.dense1 (fun n k => x0 (ix2 n k))
          (fun n k => Cert.ReferenceIdeal.Read.val_main_v13 (F := Ideal) x0 x1 (ix2 n k))
          (fun k j => x3 (ix2 k j)) (fun j => x4 (ix1 j)) n j := by
  rw [val_main_v18_apply, val_main_v15_apply, val_main_v17_apply, val_main_v16_apply]
  have el : ∀ k : Fin 64, lidx_main_v15 (ix2 n j) k = ix2 n k := fun k => funext fun a => Fin.ext (by match a with | ⟨0, _⟩ => rfl | ⟨1, _⟩ => rfl)
  have er : ∀ k : Fin 64, ridx_main_v15 (ix2 n j) k = ix2 k j := fun k => funext fun a => Fin.ext (by match a with | ⟨0, _⟩ => rfl | ⟨1, _⟩ => rfl)
  have e16 : idx_main_v16 (idx_main_v17 (ix2 n j)) = ix1 j := funext fun a => Fin.ext (by match a with | ⟨0, _⟩ => rfl)
  simp only [el, er, e16, val_main_v14_apply, Ideal.addf_def]
  rfl

open Idealize.ShloMosaic Idealize.ShloMosaic.ValueIdx Cert.ReferenceIdeal in
/-- The reference program's result at row `n`, column `j`, in the whole-column form. -/
theorem ref_eq (x0 : FVec Ideal S100000x64 .f32) (x1 : (⟨S2x1600000, .i32⟩ : BufTy).Contents (Elt Ideal))
    (x3 : FVec Ideal S64x128 .f32) (x4 x5 x6 : FVec Ideal S128 .f32) (x7 : FVec Ideal S128x128 .f32) (x8 : FVec Ideal S128 .f32)
    (n : Fin 100000) (j : Fin 128) :
    Cert.ReferenceIdeal.Read.val_main_v48 (F := Ideal) x0 x1 x3 x4 x5 x6 x7 x8 (ix2 n j)
      = Cert.Bridge.wOut
          (Cert.Bridge.dense1 (fun n k => x0 (ix2 n k)) (fun n k => Cert.ReferenceIdeal.Read.val_main_v13 (F := Ideal) x0 x1 (ix2 n k))
            (fun k j => x3 (ix2 k j)) (fun j => x4 (ix1 j)))
          (Ideal.ofBits .f32 0x47C35000#32) (Ideal.ofBits .f32 0x3727C5AC#32)
          (fun j => x5 (ix1 j)) (fun j => x6 (ix1 j)) (fun k j => x7 (ix2 k j)) (fun j => x8 (ix1 j)) n j :=
  out_eq x0 x1 x3 x4 x5 x6 x7 x8 _ (h_eq x0 x1 x3 x4) n j

end Cert.RefValue

end
-- ==== Proof.Consts.lean ====
/-
  The two float constants the programs spell, as the extended reals their patterns denote: the row count
  `100000.0` and the variance offset `ε` (sign 0, exponent 110, mantissa 0x27C5AC: a positive dyadic close
  to `1e-5`).  Only positivity of `ε` is used.
-/
import Idealize.ShloMosaic.PureOps.Ideal

noncomputable section

namespace Cert.Consts

open Idealize.ShloMosaic

/-- `100000.0` denotes the real `100000`. -/
theorem ofBits_N : Ideal.ofBits .f32 0x47C35000#32 = ((100000 : ℝ) : EReal) := by
  simp [Ideal.ofBits, Ideal.ieee, -EReal.coe_mul]; norm_num

/-- The variance offset denotes a positive real. -/
theorem ofBits_eps : ∃ e : ℝ, 0 < e ∧ Ideal.ofBits .f32 0x3727C5AC#32 = (e : EReal) := by
  refine ⟨(1 + 0x27C5AC / 2 ^ 23) * (2 : ℝ) ^ (110 - 127 : Int), by positivity, ?_⟩
  simp [Ideal.ofBits, Ideal.ieee, -EReal.coe_mul] <;> norm_num

end Cert.Consts

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.Finite.lean ====
import Idealize.ShloMosaic.Lib.ReduceAll
import Idealize.ShloMosaic.Lib.ValueIdx
import Idealize.ShloMosaic.PureOps.Ideal
import proofs.«152382_j29643864277575_1_alg».proof.Pre_finite_inputs
import proofs.«152382_j29643864277575_1_alg».proof.Proof.Gen.ReferenceIdeal.Read
import proofs.«152382_j29643864277575_1_alg».proof.Proof.LibScatterAddRows
import proofs.«152382_j29643864277575_1_alg».proof.Proof.LibGatherRows
import proofs.«152382_j29643864277575_1_alg».proof.Proof.LibSumSwap

noncomputable section

namespace Cert.Finite

open Idealize.ShloMosaic

instance : Subsingleton Cert.Pre_finite_inputs.S_.Idx := ⟨fun a b => funext fun d => d.elim0⟩

/-- An extended real whose absolute value max x (-x) lies strictly below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One all (|a| < +∞) test that came out true: every entry of a is a real number. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1) :
    ∀ i, ∃ r : ℝ, a i = (r : EReal) := by
  intro i
  have h1 := Host.reduce_andi_all _ _ hr hu ValueIdx.ix0 e i
  exact real_of_abs_lt_top (a i) h1

open Cert.Pre_finite_inputs in
/-- The finiteness precondition, read back: each float input it tests is a table of real numbers. -/
theorem real_of_pre [Cert.Pre_finite_inputs.Facts]
    (a0 : FVec Ideal S100000x64 .f32) (a1 : IVec S2x1600000 32) (a2 : FVec Ideal S1600000x8 .f32)
    (a3 : FVec Ideal S64x128 .f32) (a4 : FVec Ideal S128 .f32) (a5 : FVec Ideal S128 .f32)
    (a6 : FVec Ideal S128 .f32) (a7 : FVec Ideal S128x128 .f32) (a8 : FVec Ideal S128 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) := by
  have h0 := congrFun h ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨e0, _⟩, e3⟩, e4⟩, e5⟩, e6⟩, e7⟩, e8⟩ := h0
  exact ⟨all_real _ _ _ a0 e0, all_real _ _ _ a3 e3, all_real _ _ _ a4 e4, all_real _ _ _ a5 e5,
    all_real _ _ _ a6 e6, all_real _ _ _ a7 e7, all_real _ _ _ a8 e8⟩

open Cert.ReferenceIdeal Cert.ReferenceIdeal.Read in
/-- The aggregated table (the segment sum of the gathered rows of x) is real when x is: each entry is zero plus a
    finite sum of entries of x. -/
theorem agg_real (x0 : (⟨Cert.ReferenceIdeal.S100000x64, .f32⟩ : BufTy).Contents (Elt Ideal))
    (x1 : (⟨Cert.ReferenceIdeal.S2x1600000, .i32⟩ : BufTy).Contents (Elt Ideal))
    (hx : ∀ i, ∃ r : ℝ, x0 i = (r : EReal)) :
    ∀ i, ∃ r : ℝ, Cert.ReferenceIdeal.Read.val_main_v13 (F := Ideal) x0 x1 i = (r : EReal) := by
  intro i
  have hswf : ScatterDims.WF ⟨2, ![100000, 64]⟩ ⟨2, ![1600000, 1]⟩ ⟨2, ![1600000, 64]⟩ [1] [0] [0] 1 :=
    Facts₀.scatter_S100000x64_S1600000x1_S1600000x64_1_0_0_1_wf
  have hgwf : GatherDims.WF ⟨2, ![100000, 64]⟩ ⟨2, ![1600000, 1]⟩ ⟨2, ![1600000, 64]⟩ [1] [0] [] [0] [] 1 ![1, 64] :=
    Facts₀.gather_S100000x64_S1600000x1_S1600000x64_1_0_n_n_0_1_164_wf
  have hupd : ∀ (e : Fin 1600000) (c : Fin 64),
      ∃ r : ℝ, val_main_v10 (F := Ideal) x0 x1 (ValueIdx.ix2 e c) = (r : EReal) := by
    intro e c
    unfold val_main_v10
    rw [show gather_S100000x64_S1600000x1_S1600000x64_1_0_n_n_0_1_164
        = Cert.LibGatherRows.rowDims2 100000 64 1600000 hgwf from rfl,
      Cert.LibGatherRows.gather_rows2_apply (by norm_num) hgwf]
    exact hx _
  obtain ⟨a, c, rfl⟩ : ∃ (a : Fin 100000) (c : Fin 64), i = ValueIdx.ix2 a c := ⟨i 0, i 1, ValueIdx.eq_ix2 i⟩
  unfold val_main_v13
  rw [Cert.LibScatterAddRows.scatterAdd_rows_apply hswf _ scatter_S100000x64_S1600000x1_S1600000x64_1_0_0_1 rfl]
  choose g hg using fun e => hupd e c
  refine ⟨∑ e ∈ Cert.LibScatterAddRows.landing (val_main_v12 (F := Ideal) x1) a.val, g e, ?_⟩
  rw [val_main_v11_apply, val_main_cst_apply, Ideal.ofBits_def, Ideal.ofBits_zero_f32, zero_add, SumSwap.coe_sum]
  exact Finset.sum_congr rfl fun e _ => hg e

end Cert.Finite

end
-- ==== Proof.lean ====
/-
  A graph layer in two spellings.  From node features `x` (100000 × 64), an edge list, and the weights of two dense
  layers and of a batch normalisation between them, both programs compute
      agg = the sum, into each node, of the feature rows of the edges' source nodes,
      h   = (x + agg)·W1 + b1,
      out = max (normalise h) 0 · W2 + b2,
  where `normalise` subtracts each column's mean over the 100000 rows, divides by the square root of the column's
  biased variance plus `ε`, scales by `γ` and shifts by `β`.

  One program runs two kernels over twenty tiles of 5000 rows: the first stores `h` and accumulates the column
  sums of `h` and `h²` tile by tile; the host turns the sums into `var = E[h²] − (E h)²`, a scale row
  `γ·rsqrt (var + ε)` and a shift row `β − mean·scale`; the second kernel stores `max (h·scale + shift) 0 · W2 + b2`.
  The other program is the textbook formula with `var = E[(h − mean)²]`.

  The claim has five parts.  Each kernel program (at machine words and at extended reals) terminates, faults nowhere
  and leaves its arguments unchanged: the statistics kernel's body is run once for its first grid point (accumulators
  reset) and once for a later point (accumulators carried), under an invariant that holds the accumulators at the
  running sums; the second kernel's body needs one run.  The reference is a straight line of host operations.
  The idealised kernel program is the printed one read at extended reals (nothing was rewritten).  And on finite
  inputs the two results agree entry by entry: the twenty tile sums add up to the whole column sum, the two variances
  agree because `E[(h − μ)²] = E[h²] − μ²`, and the two affine forms are one polynomial identity — all three facts
  about real numbers, which is where finiteness of the inputs (and hence of `agg` and `h`) is used.
-/
import proofs.«152382_j29643864277575_1_alg».proof.Defs
import proofs.«152382_j29643864277575_1_alg».proof.Proof.Gen.Kernel
import proofs.«152382_j29643864277575_1_alg».proof.Proof.Gen.KernelIdeal
import proofs.«152382_j29643864277575_1_alg».proof.Proof.Gen.ReferenceIdeal
import proofs.«152382_j29643864277575_1_alg».proof.Proof.Gen.Pre_finite_inputs
import proofs.«152382_j29643864277575_1_alg».proof.Proof.Gen.ReferenceIdeal.Run
import proofs.«152382_j29643864277575_1_alg».proof.Proof.Gen.ReferenceIdeal.Read
import proofs.«152382_j29643864277575_1_alg».proof.Proof.KBRun
import proofs.«152382_j29643864277575_1_alg».proof.Proof.KIValue
import proofs.«152382_j29643864277575_1_alg».proof.Proof.Algebra
import proofs.«152382_j29643864277575_1_alg».proof.Proof.RefValue
import proofs.«152382_j29643864277575_1_alg».proof.Proof.Consts
import proofs.«152382_j29643864277575_1_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx

/-- The word-level kernel program runs to the end and leaves its arguments as launched. -/
theorem frame_k : Cert.frame_Kernel := fun m ρ _ => Cert.Kernel.Hand.frame m ρ

/-- So does the same program read at extended reals. -/
theorem frame_ki : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel program was printed for reading at extended reals. -/
theorem preserves : Cert.preserves_Kernel_KernelIdeal := trivial

/-- On finite inputs the two programs' results agree entry by entry. -/
theorem algebraic : Cert.algebraic_KernelIdeal_ReferenceIdeal := by
  intro m ρ m' ρ' hpre hagree
  refine ⟨fun c => fun i => Cert.Bridge.wOut (Cert.KernelIdeal.Hand.hM m c) Cert.KernelIdeal.Hand.cN Cert.KernelIdeal.Hand.cEps
      (fun j => m ((c.tc : Thread Cert.KernelIdeal.nD Cert.KernelIdeal.τ).loc Cert.KernelIdeal.main_arg5) (ix1 j))
      (fun j => m ((c.tc : Thread Cert.KernelIdeal.nD Cert.KernelIdeal.τ).loc Cert.KernelIdeal.main_arg6) (ix1 j))
      (fun k j => m ((c.tc : Thread Cert.KernelIdeal.nD Cert.KernelIdeal.τ).loc Cert.KernelIdeal.main_arg7) (ix2 k j))
      (fun j => m ((c.tc : Thread Cert.KernelIdeal.nD Cert.KernelIdeal.τ).loc Cert.KernelIdeal.main_arg8) (ix1 j)) (i 0) (i 1), ?_, ?_⟩
  · -- the kernel program: its result in the tiled form, then the algebra on real data
    refine (θ_run Cert.KernelIdeal.defs _ _).mono (fun r h c => ⟨?_,
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c)⟩) (Cert.KernelIdeal.Hand.run_all m ρ)
    refine (h c _ (Cert.KernelIdeal.Hand.mem_uc Cert.KernelIdeal.main_v31 (by decide))).trans ?_
    funext i
    obtain ⟨n, j, rfl⟩ : ∃ (n : Fin 100000) (j : Fin 128), i = ix2 n j := ⟨i 0, i 1, eq_ix2 i⟩
    obtain ⟨h0, h3, h4, h5, h6, -, -⟩ := Cert.Finite.real_of_pre _ _ _ _ _ _ _ _ _ (hpre c)
    obtain ⟨e, he, hε⟩ := Cert.Consts.ofBits_eps
    refine (Cert.KernelIdeal.Hand.kernel_out m ρ c n j).trans ?_
    exact Cert.Bridge.tOut_eq_wOut _
      (Cert.Bridge.dense1_isReal (fun n k => h0 _) (fun n k => Cert.Finite.agg_real _ _ h0 _) (fun k j => h3 _) (fun j => h4 _))
      _ _ Cert.Consts.ofBits_N e he hε _ _ (fun j => h5 _) (fun j => h6 _) _ _ _ _
  · -- the reference: its result in the whole-column form, at the kernel program's arguments
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v48_eq]
    obtain ⟨a0, a1, -, a3, a4, a5, a6, a7, a8⟩ := hagree c
    rw [a0, a1, a3, a4, a5, a6, a7, a8]
    funext i
    obtain ⟨n, j, rfl⟩ : ∃ (n : Fin 100000) (j : Fin 128), i = ix2 n j := ⟨i 0, i 1, eq_ix2 i⟩
    exact Cert.RefValue.ref_eq _ _ _ _ _ _ _ _ n j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
